-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S256x256 : Shape := ⟨2, ![256, 256]⟩
abbrev S1x256x64x64 : Shape := ⟨4, ![1, 256, 64, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256x64x64 : S_.BroadcastsInDim S1x256x64x64 (![] : Fin 0 → Fin S1x256x64x64.rank)
  reducesTo_S1x256x64x64_S_d0_1_2_3 : S1x256x64x64.ReducesTo [0, 1, 2, 3] S_

variable [Facts]

def fn {F : FTy → Type} [FloatOps F] (main_arg0 : FVec F S32x256x64x64 .f32) (main_arg1 : FVec F S256x256 .f32) (main_arg2 : FVec F S1x256x64x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256x64x64 .f32 := Host.absf main_arg2
  let main_cst_2 : FVec F S_ .f32 := constant S_ .f32 0x7F800000#32
  let main_v10 : FVec F S1x256x64x64 .f32 := broadcastInDim S1x256x64x64 ![] bcast_S_S1x256x64x64 main_cst_2
  let main_v11 : IVec S1x256x64x64 1 := cmpf .olt main_v9 main_v10
  let main_c_3 : IVec S_ 1 := constantI S_ 1 1#1
  let main_v12 : IVec S_ 1 := (fun x v => Host.reduce IntOp.andi x v reducesTo_S1x256x64x64_S_d0_1_2_3 h_S_) main_v11 main_c_3
  let main_v13 : IVec S_ 1 := andi main_v8 main_v12
  main_v13
-- ==== Kernel.lean ====
abbrev S32x256x64x64 : Shape := ⟨4, ![32, 256, 64, 64]⟩
abbrev S256x256 : Shape := ⟨2, ![256, 256]⟩
abbrev S1x256x64x64 : Shape := ⟨4, ![1, 256, 64, 64]⟩
abbrev S32x256x4096 : Shape := ⟨3, ![32, 256, 4096]⟩
abbrev S1x256x4096 : Shape := ⟨3, ![1, 256, 4096]⟩
abbrev S256x4096 : Shape := ⟨2, ![256, 4096]⟩
abbrev S256 : Shape := ⟨1, ![256]⟩
abbrev S256x1 : Shape := ⟨2, ![256, 1]⟩
abbrev S1x256 : Shape := ⟨2, ![1, 256]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x256x64x64, .f32⟩
  | .hbm, ⟨1, _⟩ => ⟨S256x256, .f32⟩
  | .hbm, ⟨2, _⟩ => ⟨S1x256x64x64, .f32⟩
  | .hbm, ⟨3, _⟩ => ⟨S32x256x4096, .f32⟩
  | .hbm, ⟨4, _⟩ => ⟨S1x256x4096, .f32⟩
  | .hbm, ⟨5, _⟩ => ⟨S32x256x4096, .f32⟩
  | .hbm, ⟨6, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S256x256, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S256x4096, .bf16⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x256x64x64_S32x256x4096 : S32x256x64x64.ShapeCasts S32x256x4096
  shapeCasts_S1x256x64x64_S1x256x4096 : S1x256x64x64.ShapeCasts S1x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  transposes_S256x1_p1_0_S1x256 : S256x1.Transposes [1, 0] S1x256
  broadcasts_S1x256_S256x256 : S1x256.Broadcasts S256x256
  broadcasts_S256x1_S256x256 : S256x1.Broadcasts S256x256
  transposes_S256x256_p1_0_S256x256 : S256x256.Transposes [1, 0] S256x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  inb_S256x4096_S256x1024_0_0 : ∀ a, (![0, 0] : Fin 2 → Nat) a + S256x1024.size a ≤ S256x4096.size a
  h_S256x1024 : 0 < S256x1024.numel
  squeezes_S1x256x4096_S256x4096 : S1x256x4096.Squeezes S256x4096
  shapeCasts_S256x1024_S256x1024 : S256x1024.ShapeCasts S256x1024
  inb_S256x4096_S256x1024_0_1024 : ∀ a, (![0, 1024] : Fin 2 → Nat) a + S256x1024.size a ≤ S256x4096.size a
  inb_S256x4096_S256x1024_0_2048 : ∀ a, (![0, 2048] : Fin 2 → Nat) a + S256x1024.size a ≤ S256x4096.size a
  inb_S256x4096_S256x1024_0_3072 : ∀ a, (![0, 3072] : Fin 2 → Nat) a + S256x1024.size a ≤ S256x4096.size a
  shapeCasts_S32x256x4096_S32x256x64x64 : S32x256x4096.ShapeCasts S32x256x64x64
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S1x256x4096.size a
  hwx0_2 : ∀ i : grid0.Coords, EltTy.bits .f32 = 32 ∨ (Rect.block (s := S1x256x4096) S1x256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S32x256x4096.size a
  hwx0_3 : ∀ i : grid0.Coords, EltTy.bits .f32 = 32 ∨ (Rect.block (s := S32x256x4096) S1x256x4096.size (cc0_transform_3 i) (hinb0_3 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S256x256 : Shape := ⟨2, ![256, 256]⟩
abbrev S1x256x64x64 : Shape := ⟨4, ![1, 256, 64, 64]⟩
abbrev S32x256x4096 : Shape := ⟨3, ![32, 256, 4096]⟩
abbrev S_ : Shape := ⟨0, ![]⟩
abbrev S32x256 : Shape := ⟨2, ![32, 256]⟩
abbrev S32x1x256 : Shape := ⟨3, ![32, 1, 256]⟩
abbrev S32x256x1 : Shape := ⟨3, ![32, 256, 1]⟩
abbrev S32x256x256 : Shape := ⟨3, ![32, 256, 256]⟩
abbrev S1x256x256 : Shape := ⟨3, ![1, 256, 256]⟩

abbrev nBuf : Space → Nat
  | .hbm => 48
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S256x256, .f32⟩
  | .hbm, ⟨2, _⟩ => ⟨S1x256x64x64, .f32⟩
  | .hbm, ⟨3, _⟩ => ⟨S32x256x4096, .f32⟩
  | .hbm, ⟨4, _⟩ => ⟨S_, .f32⟩
  | .hbm, ⟨5, _⟩ => ⟨S32x256, .f32⟩
  | .hbm, ⟨6, _⟩ => ⟨S_, .f32⟩
  | .hbm, ⟨7, _⟩ => ⟨S32x256, .f32⟩
  | .hbm, ⟨8, _⟩ => ⟨S32x256, .f32⟩
  | .hbm, ⟨9, _⟩ => ⟨S32x1x256, .f32⟩
  | .hbm, ⟨10, _⟩ => ⟨S32x256x1, .f32⟩
  | .hbm, ⟨11, _⟩ => ⟨S32x256x256, .f32⟩
  | .hbm, ⟨12, _⟩ => ⟨S32x256x256, .f32⟩
  | .hbm, ⟨13, _⟩ => ⟨S32x256x256, .f32⟩
  | .hbm, ⟨14, _⟩ => ⟨S32x256x256, .f32⟩
  | .hbm, ⟨15, _⟩ => ⟨S32x256x256, .f32⟩
  | .hbm, ⟨16, _⟩ => ⟨S_, .f32⟩
  | .hbm, ⟨17, _⟩ => ⟨S32x256x256, .f32⟩
  | .hbm, ⟨18, _⟩ => ⟨S32x256x256, .f32⟩
  | .hbm, ⟨19, _⟩ => ⟨S_, .f32⟩
  | .hbm, ⟨20, _⟩ => ⟨S32x256x256, .f32⟩
  | .hbm, ⟨21, _⟩ => ⟨S32x256x256, .f32⟩
  | .hbm, ⟨22, _⟩ => ⟨S_, .f32⟩
  | .hbm, ⟨23, _⟩ => ⟨S32x256x256, .f32⟩
  | .hbm, ⟨24, _⟩ => ⟨S32x256x256, .f32⟩
  | .hbm, ⟨25, _⟩ => ⟨S32x256x256, .f32⟩
  | .hbm, ⟨26, _⟩ => ⟨S_, .f32⟩
  | .hbm, ⟨27, _⟩ => ⟨S32x256x256, .f32⟩
  | .hbm, ⟨28, _⟩ => ⟨S32x256x256, .f32⟩
  | .hbm, ⟨29, _⟩ => ⟨S32x256x256, .f32⟩
  | .hbm, ⟨30, _⟩ => ⟨S_, .f32⟩
  | .hbm, ⟨31, _⟩ => ⟨S32x256x256, .f32⟩
  | .hbm, ⟨32, _⟩ => ⟨S32x256x256, .f32⟩
  | .hbm, ⟨33, _⟩ => ⟨S32x256x256, .f32⟩
  | .hbm, ⟨34, _⟩ => ⟨S32x256x256, .f32⟩
  | .hbm, ⟨35, _⟩ => ⟨S_, .f32⟩
  | .hbm, ⟨36, _⟩ => ⟨S32x256x256, .f32⟩
  | .hbm, ⟨37, _⟩ => ⟨S32x256x256, .f32⟩
  | .hbm, ⟨38, _⟩ => ⟨S1x256x256, .f32⟩
  | .hbm, ⟨39, _⟩ => ⟨S32x256x256, .f32⟩
  | .hbm, ⟨40, _⟩ => ⟨S32x256x256, .f32⟩
  | .hbm, ⟨41, _⟩ => ⟨S32x256x4096, .f32⟩
  | .hbm, ⟨42, _⟩ => ⟨S32x256x64x64, .f32⟩
  | .hbm, ⟨43, _⟩ => ⟨S32x256x64x64, .f32⟩
  | .hbm, ⟨44, _⟩ => ⟨S32x256x64x64, .f32⟩
  | .hbm, ⟨45, _⟩ => ⟨S_, .f32⟩
  | .hbm, ⟨46, _⟩ => ⟨S32x256x64x64, .f32⟩
  | .hbm, ⟨47, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_cst : Ref sig .tc := ⟨.hbm, 45, rfl⟩
abbrev main_call0_v0 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  shapeCasts_S32x256x64x64_S32x256x4096 : S32x256x64x64.ShapeCasts S32x256x4096
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S32x256_S32x1x256_0_2 : S32x256.BroadcastsInDim S32x1x256 (![0, 2] : Fin 2 → Fin S32x1x256.rank)
  bcast_S32x256_S32x256x1_0_1 : S32x256.BroadcastsInDim S32x256x1 (![0, 1] : Fin 2 → Fin S32x256x1.rank)
  bcast_S32x1x256_S32x256x256_0_1_2 : S32x1x256.BroadcastsInDim S32x256x256 (![0, 1, 2] : Fin 3 → Fin S32x256x256.rank)
  bcast_S32x256x1_S32x256x256_0_1_2 : S32x256x1.BroadcastsInDim S32x256x256 (![0, 1, 2] : Fin 3 → Fin S32x256x256.rank)
  bcast_S_S32x256x256 : S_.BroadcastsInDim S32x256x256 (![] : Fin 0 → Fin S32x256x256.rank)
  transposes_S32x256x256_S32x256x256_0_2_1 : S32x256x256.Transposes [0, 2, 1] S32x256x256
  bcast_S256x256_S1x256x256_1_2 : S256x256.BroadcastsInDim S1x256x256 (![1, 2] : Fin 2 → Fin S1x256x256.rank)
  bcast_S1x256x256_S32x256x256_0_1_2 : S1x256x256.BroadcastsInDim S32x256x256 (![0, 1, 2] : Fin 3 → Fin S32x256x256.rank)
  shapeCasts_S32x256x4096_S32x256x64x64 : S32x256x4096.ShapeCasts S32x256x64x64
  bcast_S1x256x64x64_S32x256x64x64_0_1_2_3 : S1x256x64x64.BroadcastsInDim S32x256x64x64 (![0, 1, 2, 3] : Fin 4 → Fin S32x256x64x64.rank)
  bcast_S_S32x256x64x64 : S_.BroadcastsInDim S32x256x64x64 (![] : Fin 0 → Fin S32x256x64x64.rank)
  dot_S32x256x256_S32x256x4096_S32x256x4096_2_1_1_2_0_0_wf : DotDims.WF S32x256x256 S32x256x4096 S32x256x4096 [2] [1] [1] [2] [0] [0]

variable [Facts₀]

def dot_S32x256x256_S32x256x4096_S32x256x4096_2_1_1_2_0_0 : DotDims S32x256x256 S32x256x4096 S32x256x4096 where
  lhsContracting := [2]
  rhsContracting := [1]
  lhsNonContracting := [1]
  rhsNonContracting := [2]
  lhsBatch := [0]
  rhsBatch := [0]
  wf := dot_S32x256x256_S32x256x4096_S32x256x4096_2_1_1_2_0_0_wf

class Facts : Prop extends Facts₀ where

variable [Facts]
-- ==== Proof.BodyBits.lean ====
/-
  The frame of the program, and what its region leaves in the result array, block by block.

  At grid point `t` (one batch entry) the body loads the entry's [1, 256, 4096] feature block, forms the channel
  means and the [256, 256] weight matrix, stores the features as a [256, 4096] matrix into its scratch, and then, for
  each of four blocks of 1024 columns, loads the scratch's columns, multiplies by the weight matrix, scales by the same
  columns of the parameter block, rectifies and stores into the same columns of the output block.  The parameter and
  output blocks are reached through [256, 4096] matrix views of their [1, 256, 4096] buffers; a buffer held through
  its own view is the same elements held through the matrix view (`set_rowView`), read at (row, column)
  (`read_rowView_apply`), so the body is run with those two buffers held through the matrix views and the result is
  carried back.  The scratch is written whole before it is read, so nothing is carried between points and the
  invariant is the plain one: the scratch at some contents.

  `outRow` names what the four stores leave, as a matrix; `outBlk` the same as a block; the proof data says the
  output window's buffer holds `outBlk` of the three input blocks after each point.
-/
import proofs.«100058_j68178310857300_2_alg».proof.Proof.Gen.Kernel.Frame
import proofs.«100058_j68178310857300_2_alg».proof.Proof.Gen.Kernel.Skeleton
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A [1, 256, 4096] buffer as a [256, 4096] matrix -/

/-- A [1, 256, 4096] staging memref seen as the [256, 4096] matrix the body's row views name. -/
abbrev rowView (M : Memref sig .tc .vmem S1x256x4096 .f32) : Memref sig .tc .vmem S256x4096 .f32 :=
  (M.slice (Rect.unit (s := S1x256x4096) ![0, 0, 0] S1x256x4096.size inb_S1x256x4096_S1x256x4096_0_0_0) (fun _ => rfl)).squeeze S256x4096 squeezes_S1x256x4096_S256x4096

theorem hz2 : (![0, 0] : Fin 2 → Nat) = fun _ => 0 := by funext a; fin_cases a <;> rfl
theorem hz3 : (![0, 0, 0] : Fin 3 → Nat) = fun _ => 0 := by funext a; fin_cases a <;> rfl

/-- A block as a matrix: the same entries, (0, r, k) at (r, k). -/
def asRows (x : Vec F S1x256x4096 .f32) : Vec F S256x4096 .f32 := shapeCast S256x4096 x shapeCasts_S1x256x4096_S256x4096

omit [FloatOps F] in
theorem asRows_apply (x : Vec F S1x256x4096 .f32) (y : S1x256x4096.Idx) : asRows x (ValueIdx.ix2 (y 1) (y 2)) = x y := by
  unfold asRows
  exact shapeCast_apply _ shapeCasts_S1x256x4096_S256x4096 (ValueIdx.ix2 (y 1) (y 2)) y
    (by rewrite [Shape.rowMajor_val_three, Shape.rowMajor_val_two]; have h0 : (y 0).val < 1 := (y 0).isLt
        show ((y 0).val * 256 + (y 1).val) * 4096 + (y 2).val = (y 1).val * 4096 + (y 2).val; omega)

/-- The matrix view has the buffer's elements: it is a slice at all of them, re-indexed. -/
theorem set_rowView (M : Memref sig .tc .vmem S1x256x4096 .f32) : (rowView M).view.set = M.view.set := by
  refine (Memref.set_view_squeeze _ _).trans ?_
  exact Finset.eq_of_subset_of_card_le (View.set_slice_subset M.view _) (by rw [View.card_set, View.card_set]; exact le_of_eq rfl)

omit [FloatOps F] in
/-- What the matrix view reads is what the buffer's own view reads, as a matrix. -/
theorem read_rowView (M : Memref sig .tc .vmem S1x256x4096 .f32) (f : M.view.ty.Contents (Elt F)) :
    (rowView M).view.read (Elt F) f = asRows (M.view.read (Elt F) f) := by
  unfold asRows
  show shapeCast S256x4096 (View.ld (M.view.read (Elt F) f) (Rect.unit (s := S1x256x4096) ![0, 0, 0] S1x256x4096.size inb_S1x256x4096_S1x256x4096_0_0_0)) _ = _
  rw [View.ld_unit_zero (S := S1x256x4096) hz3]

omit [FloatOps F] in
/-- Holding a staging memref is holding its matrix view, at the same contents read as a matrix; -/
theorem owns_to_rowView (c : Dev nD) (M : Memref sig .tc .vmem S1x256x4096 .f32) (X : Vec F S1x256x4096 .f32) :
    (owns (c : Thread nD τ) M fullShare X : sProp 𝕄) ⊢ owns (c : Thread nD τ) (rowView M) fullShare (asRows X) := by
  unfold owns
  iintro ⟨%f, %hf, H⟩
  subst hf
  iexists f; isplitr; · ipureintro; exact read_rowView M f
  rw [set_rowView]; iexact H

omit [FloatOps F] in
/-- and back, the matrix read at (row, column). -/
theorem owns_of_rowView (c : Dev nD) (M : Memref sig .tc .vmem S1x256x4096 .f32) (Y : Vec F S256x4096 .f32) :
    (owns (c : Thread nD τ) (rowView M) fullShare Y : sProp 𝕄)
      ⊢ owns (c : Thread nD τ) M fullShare (fun y => Y (ValueIdx.ix2 (y 1) (y 2))) := by
  unfold owns
  iintro ⟨%f, %hf, H⟩
  subst hf
  iexists f; isplitr
  · ipureintro; funext y; rw [read_rowView, asRows_apply]
  rw [set_rowView]; iexact H

omit [FloatOps F] in
/-- A block held as a matrix is the block held. -/
theorem owns_asRows_back (c : Dev nD) (M : Memref sig .tc .vmem S1x256x4096 .f32) (X : Vec F S1x256x4096 .f32) :
    (owns (c : Thread nD τ) (rowView M) fullShare (asRows X) : sProp 𝕄) ⊢ owns (c : Thread nD τ) M fullShare X := by
  refine (owns_of_rowView c M (asRows X)).trans ?_
  rw [show (fun y : S1x256x4096.Idx => asRows X (ValueIdx.ix2 (y 1) (y 2))) = X from funext fun y => asRows_apply X y]

/-! ## The scratch -/

/-- The scratch held whole, at some contents. -/
def scr (c : Dev nD) : sProp 𝕄 :=
  iprop(∃ f : BufTy.Contents (Elt F) (Memref.whole cc0_scratch0 : Memref sig .tc .vmem S256x4096 .bf16).view.ty,
    View.loc (c : Thread nD τ) (Memref.whole cc0_scratch0 : Memref sig .tc .vmem S256x4096 .bf16).view ↦[(Memref.whole cc0_scratch0 : Memref sig .tc .vmem S256x4096 .bf16).view.set]{fullShare} f)

omit [FloatOps F] in
theorem scr_intro (c : Dev nD) :
    (iprop(∃ f : Buf (Elt F) ((c : Thread nD τ).loc cc0_scratch0), ((c : Thread nD τ).loc cc0_scratch0) ↦{fullShare} f) : sProp 𝕄) ⊢ scr (F := F) c := by
  unfold scr
  iintro ⟨%f, H⟩; iexists f
  simp only [Memref.view_whole, View.set_whole]; iexact H

omit [FloatOps F] in
theorem scr_elim (c : Dev nD) :
    scr (F := F) c ⊢ (iprop(∃ f : Buf (Elt F) ((c : Thread nD τ).loc cc0_scratch0), ((c : Thread nD τ).loc cc0_scratch0) ↦{fullShare} f) : sProp 𝕄) := by
  unfold scr
  iintro ⟨%f, H⟩; iexists f
  simp only [Memref.view_whole, View.set_whole] at *; iexact H

set_option maxRecDepth 65536 in
/-- A load of a rectangle from the scratch after ONE store through all of it reads the stored matrix there. -/
theorem scratch_back {κ : Kind} {sp : Space} (v : View sig κ sp S256x4096 .bf16) (w : Vec F S256x4096 .bf16) (r : Rect S256x4096) :
    v.readCov [(⟨Rect.unit (s := S256x4096) ![0, 0] S256x4096.size inb_S256x4096_S256x4096_0_0, w⟩ : View.Piece (Elt F) S256x4096 .bf16)] r.toLoadRect = View.ld w r := by
  have hcov : ∀ y : S256x4096.Idx, ∃ p ∈ ([⟨Rect.unit (s := S256x4096) ![0, 0] S256x4096.size inb_S256x4096_S256x4096_0_0, w⟩] : List (View.Piece (Elt F) S256x4096 .bf16)), y ∈ p.1.set :=
    fun y => ⟨_, List.mem_singleton_self _, View.mem_set_unit_zero (S := S256x4096) hz2 inb_S256x4096_S256x4096_0_0 y⟩
  rw [View.readCov_eq_canon_ld _ _ _ hcov, View.canon_unit_zero (S := S256x4096) hz2]

/-! ## What the body leaves in the output block -/

/-- The four column blocks of 1024 lanes. -/
abbrev colBlk0 : Rect S256x4096 := Rect.unit (s := S256x4096) ![0, 0] S256x1024.size inb_S256x4096_S256x1024_0_0
abbrev colBlk1 : Rect S256x4096 := Rect.unit (s := S256x4096) ![0, 1024] S256x1024.size inb_S256x4096_S256x1024_0_1024
abbrev colBlk2 : Rect S256x4096 := Rect.unit (s := S256x4096) ![0, 2048] S256x1024.size inb_S256x4096_S256x1024_0_2048
abbrev colBlk3 : Rect S256x4096 := Rect.unit (s := S256x4096) ![0, 3072] S256x1024.size inb_S256x4096_S256x1024_0_3072

/-- What the body leaves in the output block, as a [256, 4096] matrix, from the feature block, the adjacency block and
    the parameter block as a matrix: four column blocks, each the rectified product of the weight matrix with the
    matching columns of the features (as stored to the scratch), scaled by the parameters' matching columns. -/
def outRow (x0 : Vec F S1x256x4096 .f32) (x1 : Vec F S256x256 .f32) (x2 : Vec F S256x4096 .f32) : Vec F S256x4096 .f32 :=
  View.canon [⟨colBlk3, k0_pay1 (k0_pay3 x0 x1) (View.ld (k0_pay4 x0) colBlk3) (View.ld x2 colBlk3)⟩,
    ⟨colBlk2, k0_pay8 (k0_pay3 x0 x1) (View.ld (k0_pay4 x0) colBlk2) (View.ld x2 colBlk2)⟩,
    ⟨colBlk1, k0_pay7 (k0_pay3 x0 x1) (View.ld (k0_pay4 x0) colBlk1) (View.ld x2 colBlk1)⟩,
    ⟨colBlk0, k0_pay6 (k0_pay5 x0 x1 (View.ld (k0_pay4 x0) colBlk0) (View.ld x2 colBlk0))⟩]

/-- The same as a [1, 256, 4096] block, from the three input blocks. -/
def outBlk (x0 : Vec F S1x256x4096 .f32) (x1 : Vec F S256x256 .f32) (x2 : Vec F S1x256x4096 .f32) : Vec F S1x256x4096 .f32 :=
  fun y => outRow x0 x1 (asRows x2) (ValueIdx.ix2 (y 1) (y 2))

/-- The four column blocks tile the matrix. -/
theorem cover_cols (p3 p2 p1 p0 : Vec F S256x1024 .f32) (y : S256x4096.Idx) :
    ∃ pc ∈ ([⟨colBlk3, p3⟩, ⟨colBlk2, p2⟩, ⟨colBlk1, p1⟩, ⟨colBlk0, p0⟩] : List (View.Piece (Elt F) S256x4096 .f32)), y ∈ pc.1.set :=
  View.cover_of_tiled [⟨colBlk3, p3⟩, ⟨colBlk2, p2⟩, ⟨colBlk1, p1⟩, ⟨colBlk0, p0⟩] S256x1024.size (by rfl) y

/-! ## The body's triple -/

set_option maxHeartbeats 1000000 in
/-- The kernel body on whole staging memrefs — the feature and adjacency memrefs at read contents, the parameter
    memref's matrix view at read contents, the output memref's matrix view and the scratch at anything — runs to the
    continuation holding the inputs as they were, the output's matrix view at `outRow`, and the scratch at something. -/
theorem sound_kernel (c : Dev nD) (E : Set ℕ) (i : grid0.Coords)
    (arg1 : Memref sig .tc .vmem S1x256x4096 .f32) (harg1 : arg1.IsWhole)
    (arg2 : Memref sig .tc .vmem S256x256 .f32) (harg2 : arg2.IsWhole)
    (arg3 : Memref sig .tc .vmem S1x256x4096 .f32) (harg3 : arg3.IsWhole)
    (arg4 : Memref sig .tc .vmem S1x256x4096 .f32) (harg4 : arg4.IsWhole)
    (x0 : Vec F S1x256x4096 .f32) (x1 : Vec F S256x256 .f32) (x2 : Vec F S256x4096 .f32) (K : PUnit → sProp 𝕄) :
    iprop(owns (c : Thread nD τ) arg1 fullShare x0 ∗ owns (c : Thread nD τ) arg2 fullShare x1 ∗ owns (c : Thread nD τ) (rowView arg3) fullShare x2
        ∗ (∃ d, owns (c : Thread nD τ) (rowView arg4) fullShare d)
        ∗ scr (F := F) c
        ∗ (iprop(owns (c : Thread nD τ) arg1 fullShare x0 ∗ owns (c : Thread nD τ) arg2 fullShare x1 ∗ owns (c : Thread nD τ) (rowView arg3) fullShare x2
            ∗ owns (c : Thread nD τ) (rowView arg4) fullShare (outRow x0 x1 x2)
            ∗ scr (F := F) c) -∗ K ⟨⟩))
      ⊢ wp frame (wpE (defs₀ (F := F)) Variants.none c none) E
          (cc0__gcn_kernel i arg1 harg1 arg2 harg2 arg3 harg3 arg4 harg4 (Memref.whole cc0_scratch0) (Memref.isWhole_whole _)) K := by
  simp only [cc0__gcn_kernel_eq_skeleton]; unfold cc0__gcn_kernel_skel
  simp only [k0_part1_eq_skeleton, k0_part2_eq_skeleton]; unfold k0_part1_skel k0_part2_skel
  unfold owns scr
  iintro ⟨⟨%f0, %hf0, H0⟩, ⟨%f1, %hf1, H1⟩, ⟨%f2, %hf2, H2⟩, ⟨%d3, %f3, -, H3⟩, ⟨%fs, HS⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover_cols _ _ _ _)]
    unfold outRow
    sl_unfold_run_names
    dsimp only
    simp only [View.readAt_eq_ld, scratch_back (View.whole cc0_scratch0), View.ld_unit_zero (S := S1x256x4096) hz3, View.ld_unit_zero (S := S256x256) hz2]
  · iexists _; iexact HS

/-! ## The pipeline's proof data -/

variable (m : (ℓ : Loc nD τ sig) → Buf (Elt F) ℓ) (ρ : Dev nD → PrngReg)

/-- The proof data of the one pipeline on core `c`: the arrays as the region finds them; after the body at point `t`
    each input's buffer at its block and the output's at `outBlk` of the input blocks; the plain invariant (the scratch
    at some contents, the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
/-- The body at any point: the inputs' memrefs hold their blocks, the scratch comes out of the invariant and goes back,
    the parameter and output buffers are handed over through their matrix views and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  iintro ⟨⟨HS, Hr⟩, Ho, ⟨%d0, H0⟩, ⟨%d1, H1⟩, ⟨%d2, H2⟩, ⟨%d3, H3⟩⟩
  iapply (sound_kernel c Set.univ _ _ _ _ _ _ _ _ _ (iblk m c 0 t) (iblk m c 1 t) (asRows (iblk m c 2 t)) _)
  isplitl [H0]; · iexact H0
  isplitl [H1]; · iexact H1
  isplitl [H2]; · iapply (owns_to_rowView c _ _); iexact H2
  isplitl [H3]; · iexists _; iapply (owns_to_rowView c _ _); iexact H3
  isplitl [HS]; · iapply (scr_intro c); iexact HS
  iintro ⟨H0, H1, H2, H3, HS⟩
  isplitl [HS Hr]
  · isplitl [HS]; · iapply (scr_elim c); iexact HS
    iexact Hr
  isplitl [Ho]; · iexact Ho
  isplitl [H0]; · iexact H0
  isplitl [H1]; · iexact H1
  isplitl [H2]; · iapply (owns_asRows_back c _ _); iexact H2
  iapply (owns_of_rowView c _ _); iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline ends at what the proof data says and every other unscoped buffer at what the closing host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyIdeal.lean ====
/-
  The frame of the program, and what its region leaves in the result array, block by block.

  At grid point `t` (one batch entry) the body loads the entry's [1, 256, 4096] feature block, forms the channel
  means and the [256, 256] weight matrix, stores the features as a [256, 4096] matrix into its scratch, and then, for
  each of four blocks of 1024 columns, loads the scratch's columns, multiplies by the weight matrix, scales by the same
  columns of the parameter block, rectifies and stores into the same columns of the output block.  The parameter and
  output blocks are reached through [256, 4096] matrix views of their [1, 256, 4096] buffers; a buffer held through
  its own view is the same elements held through the matrix view (`set_rowView`), read at (row, column)
  (`read_rowView_apply`), so the body is run with those two buffers held through the matrix views and the result is
  carried back.  The scratch is written whole before it is read, so nothing is carried between points and the
  invariant is the plain one: the scratch at some contents.

  `outRow` names what the four stores leave, as a matrix; `outBlk` the same as a block; the proof data says the
  output window's buffer holds `outBlk` of the three input blocks after each point.
-/
import proofs.«100058_j68178310857300_2_alg».proof.Proof.Gen.KernelIdeal.Frame
import proofs.«100058_j68178310857300_2_alg».proof.Proof.Gen.KernelIdeal.Skeleton
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A [1, 256, 4096] buffer as a [256, 4096] matrix -/

/-- A [1, 256, 4096] staging memref seen as the [256, 4096] matrix the body's row views name. -/
abbrev rowView (M : Memref sig .tc .vmem S1x256x4096 .f32) : Memref sig .tc .vmem S256x4096 .f32 :=
  (M.slice (Rect.unit (s := S1x256x4096) ![0, 0, 0] S1x256x4096.size inb_S1x256x4096_S1x256x4096_0_0_0) (fun _ => rfl)).squeeze S256x4096 squeezes_S1x256x4096_S256x4096

theorem hz2 : (![0, 0] : Fin 2 → Nat) = fun _ => 0 := by funext a; fin_cases a <;> rfl
theorem hz3 : (![0, 0, 0] : Fin 3 → Nat) = fun _ => 0 := by funext a; fin_cases a <;> rfl

/-- A block as a matrix: the same entries, (0, r, k) at (r, k). -/
def asRows (x : Vec F S1x256x4096 .f32) : Vec F S256x4096 .f32 := shapeCast S256x4096 x shapeCasts_S1x256x4096_S256x4096

omit [FloatOps F] in
theorem asRows_apply (x : Vec F S1x256x4096 .f32) (y : S1x256x4096.Idx) : asRows x (ValueIdx.ix2 (y 1) (y 2)) = x y := by
  unfold asRows
  exact shapeCast_apply _ shapeCasts_S1x256x4096_S256x4096 (ValueIdx.ix2 (y 1) (y 2)) y
    (by rewrite [Shape.rowMajor_val_three, Shape.rowMajor_val_two]; have h0 : (y 0).val < 1 := (y 0).isLt
        show ((y 0).val * 256 + (y 1).val) * 4096 + (y 2).val = (y 1).val * 4096 + (y 2).val; omega)

/-- The matrix view has the buffer's elements: it is a slice at all of them, re-indexed. -/
theorem set_rowView (M : Memref sig .tc .vmem S1x256x4096 .f32) : (rowView M).view.set = M.view.set := by
  refine (Memref.set_view_squeeze _ _).trans ?_
  exact Finset.eq_of_subset_of_card_le (View.set_slice_subset M.view _) (by rw [View.card_set, View.card_set]; exact le_of_eq rfl)

omit [FloatOps F] in
/-- What the matrix view reads is what the buffer's own view reads, as a matrix. -/
theorem read_rowView (M : Memref sig .tc .vmem S1x256x4096 .f32) (f : M.view.ty.Contents (Elt F)) :
    (rowView M).view.read (Elt F) f = asRows (M.view.read (Elt F) f) := by
  unfold asRows
  show shapeCast S256x4096 (View.ld (M.view.read (Elt F) f) (Rect.unit (s := S1x256x4096) ![0, 0, 0] S1x256x4096.size inb_S1x256x4096_S1x256x4096_0_0_0)) _ = _
  rw [View.ld_unit_zero (S := S1x256x4096) hz3]

omit [FloatOps F] in
/-- Holding a staging memref is holding its matrix view, at the same contents read as a matrix; -/
theorem owns_to_rowView (c : Dev nD) (M : Memref sig .tc .vmem S1x256x4096 .f32) (X : Vec F S1x256x4096 .f32) :
    (owns (c : Thread nD τ) M fullShare X : sProp 𝕄) ⊢ owns (c : Thread nD τ) (rowView M) fullShare (asRows X) := by
  unfold owns
  iintro ⟨%f, %hf, H⟩
  subst hf
  iexists f; isplitr; · ipureintro; exact read_rowView M f
  rw [set_rowView]; iexact H

omit [FloatOps F] in
/-- and back, the matrix read at (row, column). -/
theorem owns_of_rowView (c : Dev nD) (M : Memref sig .tc .vmem S1x256x4096 .f32) (Y : Vec F S256x4096 .f32) :
    (owns (c : Thread nD τ) (rowView M) fullShare Y : sProp 𝕄)
      ⊢ owns (c : Thread nD τ) M fullShare (fun y => Y (ValueIdx.ix2 (y 1) (y 2))) := by
  unfold owns
  iintro ⟨%f, %hf, H⟩
  subst hf
  iexists f; isplitr
  · ipureintro; funext y; rw [read_rowView, asRows_apply]
  rw [set_rowView]; iexact H

omit [FloatOps F] in
/-- A block held as a matrix is the block held. -/
theorem owns_asRows_back (c : Dev nD) (M : Memref sig .tc .vmem S1x256x4096 .f32) (X : Vec F S1x256x4096 .f32) :
    (owns (c : Thread nD τ) (rowView M) fullShare (asRows X) : sProp 𝕄) ⊢ owns (c : Thread nD τ) M fullShare X := by
  refine (owns_of_rowView c M (asRows X)).trans ?_
  rw [show (fun y : S1x256x4096.Idx => asRows X (ValueIdx.ix2 (y 1) (y 2))) = X from funext fun y => asRows_apply X y]

/-! ## The scratch -/

/-- The scratch held whole, at some contents. -/
def scr (c : Dev nD) : sProp 𝕄 :=
  iprop(∃ f : BufTy.Contents (Elt F) (Memref.whole cc0_scratch0 : Memref sig .tc .vmem S256x4096 .bf16).view.ty,
    View.loc (c : Thread nD τ) (Memref.whole cc0_scratch0 : Memref sig .tc .vmem S256x4096 .bf16).view ↦[(Memref.whole cc0_scratch0 : Memref sig .tc .vmem S256x4096 .bf16).view.set]{fullShare} f)

omit [FloatOps F] in
theorem scr_intro (c : Dev nD) :
    (iprop(∃ f : Buf (Elt F) ((c : Thread nD τ).loc cc0_scratch0), ((c : Thread nD τ).loc cc0_scratch0) ↦{fullShare} f) : sProp 𝕄) ⊢ scr (F := F) c := by
  unfold scr
  iintro ⟨%f, H⟩; iexists f
  simp only [Memref.view_whole, View.set_whole]; iexact H

omit [FloatOps F] in
theorem scr_elim (c : Dev nD) :
    scr (F := F) c ⊢ (iprop(∃ f : Buf (Elt F) ((c : Thread nD τ).loc cc0_scratch0), ((c : Thread nD τ).loc cc0_scratch0) ↦{fullShare} f) : sProp 𝕄) := by
  unfold scr
  iintro ⟨%f, H⟩; iexists f
  simp only [Memref.view_whole, View.set_whole] at *; iexact H

set_option maxRecDepth 65536 in
/-- A load of a rectangle from the scratch after ONE store through all of it reads the stored matrix there. -/
theorem scratch_back {κ : Kind} {sp : Space} (v : View sig κ sp S256x4096 .bf16) (w : Vec F S256x4096 .bf16) (r : Rect S256x4096) :
    v.readCov [(⟨Rect.unit (s := S256x4096) ![0, 0] S256x4096.size inb_S256x4096_S256x4096_0_0, w⟩ : View.Piece (Elt F) S256x4096 .bf16)] r.toLoadRect = View.ld w r := by
  have hcov : ∀ y : S256x4096.Idx, ∃ p ∈ ([⟨Rect.unit (s := S256x4096) ![0, 0] S256x4096.size inb_S256x4096_S256x4096_0_0, w⟩] : List (View.Piece (Elt F) S256x4096 .bf16)), y ∈ p.1.set :=
    fun y => ⟨_, List.mem_singleton_self _, View.mem_set_unit_zero (S := S256x4096) hz2 inb_S256x4096_S256x4096_0_0 y⟩
  rw [View.readCov_eq_canon_ld _ _ _ hcov, View.canon_unit_zero (S := S256x4096) hz2]

/-! ## What the body leaves in the output block -/

/-- The four column blocks of 1024 lanes. -/
abbrev colBlk0 : Rect S256x4096 := Rect.unit (s := S256x4096) ![0, 0] S256x1024.size inb_S256x4096_S256x1024_0_0
abbrev colBlk1 : Rect S256x4096 := Rect.unit (s := S256x4096) ![0, 1024] S256x1024.size inb_S256x4096_S256x1024_0_1024
abbrev colBlk2 : Rect S256x4096 := Rect.unit (s := S256x4096) ![0, 2048] S256x1024.size inb_S256x4096_S256x1024_0_2048
abbrev colBlk3 : Rect S256x4096 := Rect.unit (s := S256x4096) ![0, 3072] S256x1024.size inb_S256x4096_S256x1024_0_3072

/-- What the body leaves in the output block, as a [256, 4096] matrix, from the feature block, the adjacency block and
    the parameter block as a matrix: four column blocks, each the rectified product of the weight matrix with the
    matching columns of the features (as stored to the scratch), scaled by the parameters' matching columns. -/
def outRow (x0 : Vec F S1x256x4096 .f32) (x1 : Vec F S256x256 .f32) (x2 : Vec F S256x4096 .f32) : Vec F S256x4096 .f32 :=
  View.canon [⟨colBlk3, k0_pay1 (k0_pay3 x0 x1) (View.ld (k0_pay4 x0) colBlk3) (View.ld x2 colBlk3)⟩,
    ⟨colBlk2, k0_pay8 (k0_pay3 x0 x1) (View.ld (k0_pay4 x0) colBlk2) (View.ld x2 colBlk2)⟩,
    ⟨colBlk1, k0_pay7 (k0_pay3 x0 x1) (View.ld (k0_pay4 x0) colBlk1) (View.ld x2 colBlk1)⟩,
    ⟨colBlk0, k0_pay6 (k0_pay5 x0 x1 (View.ld (k0_pay4 x0) colBlk0) (View.ld x2 colBlk0))⟩]

/-- The same as a [1, 256, 4096] block, from the three input blocks. -/
def outBlk (x0 : Vec F S1x256x4096 .f32) (x1 : Vec F S256x256 .f32) (x2 : Vec F S1x256x4096 .f32) : Vec F S1x256x4096 .f32 :=
  fun y => outRow x0 x1 (asRows x2) (ValueIdx.ix2 (y 1) (y 2))

/-- The four column blocks tile the matrix. -/
theorem cover_cols (p3 p2 p1 p0 : Vec F S256x1024 .f32) (y : S256x4096.Idx) :
    ∃ pc ∈ ([⟨colBlk3, p3⟩, ⟨colBlk2, p2⟩, ⟨colBlk1, p1⟩, ⟨colBlk0, p0⟩] : List (View.Piece (Elt F) S256x4096 .f32)), y ∈ pc.1.set :=
  View.cover_of_tiled [⟨colBlk3, p3⟩, ⟨colBlk2, p2⟩, ⟨colBlk1, p1⟩, ⟨colBlk0, p0⟩] S256x1024.size (by rfl) y

/-! ## The body's triple -/

set_option maxHeartbeats 1000000 in
/-- The kernel body on whole staging memrefs — the feature and adjacency memrefs at read contents, the parameter
    memref's matrix view at read contents, the output memref's matrix view and the scratch at anything — runs to the
    continuation holding the inputs as they were, the output's matrix view at `outRow`, and the scratch at something. -/
theorem sound_kernel (c : Dev nD) (E : Set ℕ) (i : grid0.Coords)
    (arg1 : Memref sig .tc .vmem S1x256x4096 .f32) (harg1 : arg1.IsWhole)
    (arg2 : Memref sig .tc .vmem S256x256 .f32) (harg2 : arg2.IsWhole)
    (arg3 : Memref sig .tc .vmem S1x256x4096 .f32) (harg3 : arg3.IsWhole)
    (arg4 : Memref sig .tc .vmem S1x256x4096 .f32) (harg4 : arg4.IsWhole)
    (x0 : Vec F S1x256x4096 .f32) (x1 : Vec F S256x256 .f32) (x2 : Vec F S256x4096 .f32) (K : PUnit → sProp 𝕄) :
    iprop(owns (c : Thread nD τ) arg1 fullShare x0 ∗ owns (c : Thread nD τ) arg2 fullShare x1 ∗ owns (c : Thread nD τ) (rowView arg3) fullShare x2
        ∗ (∃ d, owns (c : Thread nD τ) (rowView arg4) fullShare d)
        ∗ scr (F := F) c
        ∗ (iprop(owns (c : Thread nD τ) arg1 fullShare x0 ∗ owns (c : Thread nD τ) arg2 fullShare x1 ∗ owns (c : Thread nD τ) (rowView arg3) fullShare x2
            ∗ owns (c : Thread nD τ) (rowView arg4) fullShare (outRow x0 x1 x2)
            ∗ scr (F := F) c) -∗ K ⟨⟩))
      ⊢ wp frame (wpE (defs₀ (F := F)) Variants.none c none) E
          (cc0__gcn_kernel i arg1 harg1 arg2 harg2 arg3 harg3 arg4 harg4 (Memref.whole cc0_scratch0) (Memref.isWhole_whole _)) K := by
  simp only [cc0__gcn_kernel_eq_skeleton]; unfold cc0__gcn_kernel_skel
  simp only [k0_part1_eq_skeleton, k0_part2_eq_skeleton]; unfold k0_part1_skel k0_part2_skel
  unfold owns scr
  iintro ⟨⟨%f0, %hf0, H0⟩, ⟨%f1, %hf1, H1⟩, ⟨%f2, %hf2, H2⟩, ⟨%d3, %f3, -, H3⟩, ⟨%fs, HS⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (cover_cols _ _ _ _)]
    unfold outRow
    sl_unfold_run_names
    dsimp only
    simp only [View.readAt_eq_ld, scratch_back (View.whole cc0_scratch0), View.ld_unit_zero (S := S1x256x4096) hz3, View.ld_unit_zero (S := S256x256) hz2]
  · iexists _; iexact HS

/-! ## The pipeline's proof data -/

variable (m : (ℓ : Loc nD τ sig) → Buf (Elt F) ℓ) (ρ : Dev nD → PrngReg)

/-- The proof data of the one pipeline on core `c`: the arrays as the region finds them; after the body at point `t`
    each input's buffer at its block and the output's at `outBlk` of the input blocks; the plain invariant (the scratch
    at some contents, the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1000000 in
/-- The body at any point: the inputs' memrefs hold their blocks, the scratch comes out of the invariant and goes back,
    the parameter and output buffers are handed over through their matrix views and taken back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq]
  iintro ⟨⟨HS, Hr⟩, Ho, ⟨%d0, H0⟩, ⟨%d1, H1⟩, ⟨%d2, H2⟩, ⟨%d3, H3⟩⟩
  iapply (sound_kernel c Set.univ _ _ _ _ _ _ _ _ _ (iblk m c 0 t) (iblk m c 1 t) (asRows (iblk m c 2 t)) _)
  isplitl [H0]; · iexact H0
  isplitl [H1]; · iexact H1
  isplitl [H2]; · iapply (owns_to_rowView c _ _); iexact H2
  isplitl [H3]; · iexists _; iapply (owns_to_rowView c _ _); iexact H3
  isplitl [HS]; · iapply (scr_intro c); iexact HS
  iintro ⟨H0, H1, H2, H3, HS⟩
  isplitl [HS Hr]
  · isplitl [HS]; · iapply (scr_elim c); iexact HS
    iexact Hr
  isplitl [Ho]; · iexact Ho
  isplitl [H0]; · iexact H0
  isplitl [H1]; · iexact H1
  isplitl [H2]; · iapply (owns_asRows_back c _ _); iexact H2
  iapply (owns_of_rowView c _ _); iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline ends at what the proof data says and every other unscoped buffer at what the closing host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, nothing faults, its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.GcnForm.lean ====
/-
  The common closed form of the two programs, over plain families of extended reals, for ONE batch entry.

  With X the [256, 4096] feature matrix of the entry, A the [256, 256] adjacency and P the [256, 4096] parameter
  matrix: the channel mean c i = (sum over k of X i k) * (1/4096); the pair weight of channels (i, j) is
  s(i, j) = | |sigma(c j - c i) - 1/2| - 1/2 | * 2, symmetrized as (s(i, j) + s(j, i)) * 1/2 and scaled by A i j;
  the result at (i, k) is max ((sum over j of weight i j * X j k) * P i k, 0).

  The float words the two programs share (1/2, 2, 0) are kept as their words; the words they do not share
  (the kernel multiplies by the word of 1/4096 where the reference divides by the word of 4096, and the reference
  spells sigma with the word of 1) are read here, once.
-/
import Idealize.ShloMosaic.PureOps.Ideal
import Idealize.ShloMosaic.PureOps.Ideal.Laws

noncomputable section

namespace Cert.GcnForm

open Idealize.ShloMosaic

/-- The shared words. -/
abbrev half : EReal := Ideal.ofBits .f32 0x3F000000#32
abbrev two : EReal := Ideal.ofBits .f32 0x40000000#32
abbrev zero : EReal := Ideal.ofBits .f32 0x00000000#32
/-- The kernel's scale, the word of 1/4096. -/
abbrev inv4096 : EReal := Ideal.ofBits .f32 0x39800000#32

/-- The word of 4096 denotes the real 4096; -/
theorem ofBits_4096 : Ideal.ofBits .f32 0x45800000#32 = ((4096 : ℝ) : EReal) := by
  simp [Ideal.ofBits, Ideal.ieee, -EReal.coe_mul]; norm_num
/-- the kernel's word denotes its reciprocal, exactly (a power of two); -/
theorem ofBits_inv4096 : Ideal.ofBits .f32 0x39800000#32 = ((1 / 4096 : ℝ) : EReal) := by
  simp [Ideal.ofBits, Ideal.ieee, -EReal.coe_mul]; norm_num
/-- and the word of one denotes one. -/
theorem ofBits_one : Ideal.ofBits .f32 0x3F800000#32 = 1 := by
  simp [Ideal.ofBits, Ideal.ieee, -EReal.coe_mul]; norm_num

/-- Dividing by 4096 is multiplying by its reciprocal, on every extended real. -/
theorem div_4096 (x : EReal) : Ideal.div x (Ideal.ofBits .f32 0x45800000#32) = x * inv4096 := by
  rw [ofBits_4096, Ideal.div_coe (by norm_num : (4096 : ℝ) ≠ 0), inv4096, ofBits_inv4096]

/-- The reference's spelling of the logistic function, with the word of one, is the function. -/
theorem logistic_spelt (d : EReal) :
    Ideal.div (Ideal.ofBits .f32 0x3F800000#32) (Ideal.ofBits .f32 0x3F800000#32 + Ideal.exp (-d)) = Ideal.logistic d := by
  rw [ofBits_one]; rfl

/-- A channel's mean over its 4096 positions. -/
def rowMean (row : Fin 4096 → EReal) : EReal := (∑ k : Fin 4096, row k) * inv4096

/-- The pair weight before symmetrization, from the two channels' means. -/
def pairW (ci cj : EReal) : EReal :=
  max (max (Ideal.logistic (cj - ci) - half) (-(Ideal.logistic (cj - ci) - half)) - half)
      (-(max (Ideal.logistic (cj - ci) - half) (-(Ideal.logistic (cj - ci) - half)) - half)) * two

/-- The symmetrized pair weight. -/
def symW (ci cj : EReal) : EReal := (pairW ci cj + pairW cj ci) * half

/-- The result of one batch entry at channel `i`, position `k`. -/
def out (X : Fin 256 → Fin 4096 → EReal) (A : Fin 256 → Fin 256 → EReal) (P : Fin 256 → Fin 4096 → EReal)
    (i : Fin 256) (k : Fin 4096) : EReal :=
  max ((∑ j : Fin 256, (A i j * symW (rowMean (X i)) (rowMean (X j))) * X j k) * P i k) zero

end Cert.GcnForm

end
-- ==== Proof.LibColumnLayout.lean ====
/-
  Column ("keepdims") layouts read at an index.

  A row-wise reduction of an [a, b] array leaves one number per row, a vector of shape [a].  To use it again against
  the [a, b] array it is first viewed as a column [a, 1] and the column is then repeated along its unit axis.  The two
  lemmas below say what those two steps read at an index written by its coordinates: the column at (i, u) is the
  vector at i, and the repeated column at (p, c) is the column at (p, u), whatever the column coordinate c is.  Both
  hold for any element type and any extents a and b.
-/
import Idealize.ShloMosaic.Lib.Pipeline.Value
import Idealize.ShloMosaic.Lib.ValueIdx

namespace Cert.Lib.ColumnLayout

open Idealize.ShloMosaic Idealize.ShloMosaic.ValueIdx

variable {α : Type}

/-- A vector of shape [a] cast to the column [a, 1] reads, at (i, u), the vector at i: the row-major position of
    (i, u) in [a, 1] is i · 1 + u, and u is 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along its unit axis to [a, b] reads, at (p, c), the column at (p, u): on the first axis
    the coordinate is kept (when a = 1 it is 0 on both sides), on the unit axis the operand's coordinate is 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Cert.Lib.ColumnLayout
-- ==== Proof.KernelMath.lean ====
/-
  The idealized kernel's payloads read at an index, at the ideal instance.

  The weight matrix the body forms from a feature block x and the adjacency block A is split as the body computes it:
  the column of channel means (`meanCol`: a lane sum times the word of 1/4096), the matrix of pair weights before
  symmetrization from that column (`pairMat`: the column repeated along rows minus the column repeated along columns,
  through the logistic function and the two absolute values), and the symmetrization and scaling by A (`weightOf`).
  Each is read at (i, j) from its operands at an index; the layout steps are the library's and the column lemmas'.
  The stored feature matrix is the block as a matrix.  A column block's store is then the closed form's row-by-column
  sum over the block's columns, scaled and rectified.
-/
import proofs.«100058_j68178310857300_2_alg».proof.Proof.Gen.KernelIdeal.Skeleton
import proofs.«100058_j68178310857300_2_alg».proof.Proof.GcnForm
import proofs.«100058_j68178310857300_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Math

open Cert.KernelIdeal Cert.KernelIdeal.Gen
open Idealize.ShloMosaic Idealize.ShloMosaic.ValueIdx Cert.GcnForm Cert.Lib.ColumnLayout

/-! ## Pointwise operations the index library does not name -/

theorem absf_at {s : Shape} {φ : FTy} (a : FVec Ideal s φ) (i : s.Idx) : absf a i = max (a i) (-(a i)) := rfl
theorem logistic_at {s : Shape} {φ : FTy} (a : FVec Ideal s φ) (i : s.Idx) : logistic a i = Ideal.logistic (a i) := rfl

/-! ## The column of channel means -/

/-- The body's column of means of a feature block. -/
def meanCol (x0 : Vec Ideal S1x256x4096 .f32) : FVec Ideal S256x1 .f32 :=
  mulf (shapeCast S256x1 (multiReduction .add [1] S256 (k0_pay2 x0) 0x00000000#32 reduces_S256x4096_S256 (.inl rfl) rfl) shapeCasts_S256_S256x1)
    (broadcast S256x1 (Scalar.ofBits .f32 0x39800000#32))

/-- A lane sum of a [256, 4096] matrix at row i is the sum of the row. -/
theorem rowSum_apply (v : FVec Ideal S256x4096 .f32) (h : S256x4096.Reduces [1] S256) (hφ : FKind.Formats .f32)
    (hacc : (0x00000000#32 : BitVec (FTy.bits .f32)) = FKind.add.neutral .f32 hφ) (i : Fin 256) :
    multiReduction .add [1] S256 v 0x00000000#32 h hφ hacc (ix1 i) = ∑ k : Fin 4096, v (ix2 i k) :=
  (Ideal.multiReduction_add_single v _ h hφ hacc (ix1 i)).trans
    (Finset.sum_congr rfl fun k _ => congrArg v (funext fun a => Fin.ext (by
      match a with
      | ⟨0, _⟩ => rfl
      | ⟨1, _⟩ => rfl)))

/-- A block as a matrix at (i, k) is the block at (0, i, k). -/
theorem pay2_apply (x0 : Vec Ideal S1x256x4096 .f32) (i : Fin 256) (k : Fin 4096) :
    k0_pay2 x0 (ix2 i k) = x0 (ix3 (0 : Fin 1) i k) := by
  unfold k0_pay2
  exact shapeCast_1ab_ab_apply x0 _ i k

theorem meanCol_apply (x0 : Vec Ideal S1x256x4096 .f32) (i : Fin 256) (u : Fin 1) :
    meanCol x0 (ix2 i u) = rowMean (fun k => x0 (ix3 (0 : Fin 1) i k)) := by
  unfold meanCol rowMean
  rw [mulf_apply, broadcast_apply, shapeCast_a_a1_apply]
  show multiReduction .add [1] S256 (k0_pay2 x0) 0x00000000#32 _ _ _ (ix1 i) * inv4096 = (∑ k : Fin 4096, x0 (ix3 (0 : Fin 1) i k)) * inv4096
  exact congrArg (· * inv4096) ((rowSum_apply (k0_pay2 x0) _ _ _ i).trans (Finset.sum_congr rfl fun k _ => pay2_apply x0 i k))

/-! ## The pair weights -/

/-- The body's matrix of pair weights before symmetrization, from the column of means. -/
def pairMat (c5 : FVec Ideal S256x1 .f32) : FVec Ideal S256x256 .f32 :=
  mulf (absf (subf (absf (subf (logistic (subf
      (broadcastTo S256x256 (transpose S1x256 [1, 0] c5 transposes_S256x1_p1_0_S1x256) broadcasts_S1x256_S256x256)
      (broadcastTo S256x256 c5 broadcasts_S256x1_S256x256)))
    (broadcast S256x256 (Scalar.ofBits .f32 0x3F000000#32))))
    (broadcast S256x256 (Scalar.ofBits .f32 0x3F000000#32))))
    (broadcast S256x256 (Scalar.ofBits .f32 0x40000000#32))

theorem pairMat_apply (c5 : FVec Ideal S256x1 .f32) (i j : Fin 256) :
    pairMat c5 (ix2 i j) = pairW (c5 (ix2 i (0 : Fin 1))) (c5 (ix2 j (0 : Fin 1))) := by
  unfold pairMat pairW
  rw [mulf_apply, broadcast_apply, absf_at, subf_apply, broadcast_apply, absf_at, subf_apply, broadcast_apply, logistic_at, subf_apply,
    broadcastTo_1b_ab_apply, transpose_ix2_apply, broadcastTo_a1_ab_apply _ _ i j (0 : Fin 1)]
  rfl

/-! ## The weight matrix -/

/-- The body's weight matrix from the adjacency block and the pair weights: symmetrized, halved, scaled. -/
def weightOf (x1 : Vec Ideal S256x256 .f32) (s : FVec Ideal S256x256 .f32) : FVec Ideal S256x256 .bf16 :=
  truncf .bf16 (mulf x1 (mulf (addf s (transpose S256x256 [1, 0] s transposes_S256x256_p1_0_S256x256))
    (broadcast S256x256 (Scalar.ofBits .f32 0x3F000000#32)))) bitsLt_bf16_f32

theorem weightOf_apply (x1 : Vec Ideal S256x256 .f32) (s : FVec Ideal S256x256 .f32) (i j : Fin 256) :
    weightOf x1 s (ix2 i j) = x1 (ix2 i j) * ((s (ix2 i j) + s (ix2 j i)) * half) := by
  unfold weightOf
  rw [truncf_apply, mulf_apply, mulf_apply, addf_apply, broadcast_apply, transpose_ix2_apply]
  rfl

/-- The body's weight payload is these three steps. -/
theorem pay3_split (x0 : Vec Ideal S1x256x4096 .f32) (x1 : Vec Ideal S256x256 .f32) :
    k0_pay3 x0 x1 = weightOf x1 (pairMat (meanCol x0)) := rfl

/-- The weight matrix at (i, j): the adjacency entry times the symmetrized pair weight of the two channels' means. -/
theorem pay3_apply (x0 : Vec Ideal S1x256x4096 .f32) (x1 : Vec Ideal S256x256 .f32) (i j : Fin 256) :
    k0_pay3 x0 x1 (ix2 i j)
      = x1 (ix2 i j) * symW (rowMean (fun k => x0 (ix3 (0 : Fin 1) i k))) (rowMean (fun k => x0 (ix3 (0 : Fin 1) j k))) := by
  rw [pay3_split, weightOf_apply, pairMat_apply, pairMat_apply, meanCol_apply, meanCol_apply]
  rfl

/-! ## The stored feature matrix -/

/-- What the body stores to its scratch, at (j, k): the block at (0, j, k). -/
theorem pay4_apply (x0 : Vec Ideal S1x256x4096 .f32) (j : Fin 256) (k : Fin 4096) :
    k0_pay4 x0 (ix2 j k) = x0 (ix3 (0 : Fin 1) j k) := by
  unfold k0_pay4
  rw [shapeCast_self, truncf_apply, pay2_apply]

/-! ## One column block's product, scaled and rectified -/

/-- The body's matrix product: [256, 256] by [256, 1024], contracted over the middle index. -/
abbrev Dm : DotDims S256x256 S256x1024 S256x1024 := dot_S256x256_S256x1024_S256x1024_1_0_0_1_n_n

theorem lhs0 (i : S256x1024.Idx) (q : Dm.contr.Idx) : (Dm.lhsIdx i q 0).val = (i 0).val := by
  unfold DotDims.lhsIdx
  rw [dif_neg (show ¬(0 : Fin S256x256.rank) ∈ Dm.lhsBatch by decide), dif_pos (show (0 : Fin S256x256.rank) ∈ Dm.lhsNonContracting by decide)]
  rfl
theorem lhs1 (i : S256x1024.Idx) (q : Dm.contr.Idx) : (Dm.lhsIdx i q 1).val = (q ⟨0, by decide⟩).val :=
  Dm.lhsIdx_val_of_single rfl i q
theorem rhs0 (i : S256x1024.Idx) (q : Dm.contr.Idx) : (Dm.rhsIdx i q 0).val = (q ⟨0, by decide⟩).val :=
  Dm.rhsIdx_val_of_single rfl i q
theorem rhs1 (i : S256x1024.Idx) (q : Dm.contr.Idx) : (Dm.rhsIdx i q 1).val = (i 1).val := by
  unfold DotDims.rhsIdx
  rw [dif_neg (show ¬(1 : Fin S256x1024.rank) ∈ Dm.rhsBatch by decide), dif_pos (show (1 : Fin S256x1024.rank) ∈ Dm.rhsNonContracting by decide)]
  rfl

/-- The product into the zero accumulator, at (r, q): the row-by-column sum. -/
theorem matmul_chunk (w : FVec Ideal S256x256 .bf16) (fb : FVec Ideal S256x1024 .bf16) (r : Fin 256) (q : Fin 1024) :
    matmul Dm none w fb (constant S256x1024 .f32 0x00000000#32) (ix2 r q) = ∑ j : Fin 256, w (ix2 r j) * fb (ix2 j q) := by
  simp only [matmul]
  rw [Ideal.matmul_constant_zero_apply, ← Equiv.sum_comp (contrEquiv1 Dm 256 rfl rfl).symm]
  refine Finset.sum_congr rfl fun k _ => ?_
  have hk := contrEquiv1_symm_val Dm 256 rfl rfl k
  have el : Dm.lhsIdx (ix2 r q) ((contrEquiv1 Dm 256 rfl rfl).symm k) = ix2 r k := funext fun a => Fin.ext (by
    match a with
    | ⟨0, _⟩ => exact lhs0 _ _
    | ⟨1, _⟩ => exact (lhs1 _ _).trans hk)
  have er : Dm.rhsIdx (ix2 r q) ((contrEquiv1 Dm 256 rfl rfl).symm k) = ix2 k q := funext fun a => Fin.ext (by
    match a with
    | ⟨0, _⟩ => exact (rhs0 _ _).trans hk
    | ⟨1, _⟩ => exact rhs1 _ _)
  rw [el, er]

/-- A column block's stored value at (r, q): the product, scaled by the parameters there, rectified. -/
theorem chunk_value (w : FVec Ideal S256x256 .bf16) (fb : FVec Ideal S256x1024 .bf16) (p : FVec Ideal S256x1024 .f32) (r : Fin 256) (q : Fin 1024) :
    maximumf (mulf (matmul Dm none w fb (constant S256x1024 .f32 0x00000000#32)) (shapeCast S256x1024 p shapeCasts_S256x1024_S256x1024))
        (broadcast S256x1024 (Scalar.ofBits .f32 0x00000000#32)) (ix2 r q)
      = max ((∑ j : Fin 256, w (ix2 r j) * fb (ix2 j q)) * p (ix2 r q)) zero := by
  rw [maximumf_apply, mulf_apply, broadcast_apply, shapeCast_self, matmul_chunk]
  rfl

theorem pay1_apply (w : FVec Ideal S256x256 .bf16) (fb : FVec Ideal S256x1024 .bf16) (p : FVec Ideal S256x1024 .f32) (r : Fin 256) (q : Fin 1024) :
    k0_pay1 w fb p (ix2 r q) = max ((∑ j : Fin 256, w (ix2 r j) * fb (ix2 j q)) * p (ix2 r q)) zero := chunk_value w fb p r q
theorem pay7_apply (w : FVec Ideal S256x256 .bf16) (fb : FVec Ideal S256x1024 .bf16) (p : FVec Ideal S256x1024 .f32) (r : Fin 256) (q : Fin 1024) :
    k0_pay7 w fb p (ix2 r q) = max ((∑ j : Fin 256, w (ix2 r j) * fb (ix2 j q)) * p (ix2 r q)) zero := chunk_value w fb p r q
theorem pay8_apply (w : FVec Ideal S256x256 .bf16) (fb : FVec Ideal S256x1024 .bf16) (p : FVec Ideal S256x1024 .f32) (r : Fin 256) (q : Fin 1024) :
    k0_pay8 w fb p (ix2 r q) = max ((∑ j : Fin 256, w (ix2 r j) * fb (ix2 j q)) * p (ix2 r q)) zero := chunk_value w fb p r q
theorem pay6_apply (x0 : Vec Ideal S1x256x4096 .f32) (x1 : Vec Ideal S256x256 .f32) (fb : FVec Ideal S256x1024 .bf16) (p : FVec Ideal S256x1024 .f32) (r : Fin 256) (q : Fin 1024) :
    k0_pay6 (k0_pay5 x0 x1 fb p) (ix2 r q) = max ((∑ j : Fin 256, k0_pay3 x0 x1 (ix2 r j) * fb (ix2 j q)) * p (ix2 r q)) zero :=
  chunk_value (k0_pay3 x0 x1) fb p r q

/-- A load of 1024 columns from column `o` of a [256, 4096] matrix reads, at (r, q), the matrix at (r, o + q). -/
theorem ld_col {α : Type} (X : S256x4096.Idx → α) (o : Nat) (inb : ∀ a, (![0, o] : Fin 2 → Nat) a + S256x1024.size a ≤ S256x4096.size a)
    (r : Fin 256) (q : Fin 1024) (hq : o + q.val < 4096) :
    X ((Rect.unit (s := S256x4096) ![0, o] S256x1024.size inb).idx (ix2 r q)) = X (ix2 r (⟨o + q.val, hq⟩ : Fin 4096)) := by
  refine congrArg X (funext fun a => Fin.ext ?_)
  match a with
  | ⟨0, _⟩ => show 0 + 1 * r.val = r.val; omega
  | ⟨1, _⟩ => show o + 1 * q.val = o + q.val; omega

end Cert.KernelIdeal.Math

end
-- ==== Proof.KernelRow.lean ====
/-
  What the body leaves in the output block, read at an index: the closed form of one batch entry.

  The four stores are the four blocks of 1024 columns of ONE function of the matrix index: at (r, c) the rectified,
  scaled row-by-column sum with the weight matrix's row r and the feature matrix's column c.  Each store's payload at
  (r, q) is that function at (r, o + q), o the block's first column; so the canon of the four stores is the function.
-/
import proofs.«100058_j68178310857300_2_alg».proof.Proof.BodyIdeal
import proofs.«100058_j68178310857300_2_alg».proof.Proof.KernelMath

set_option maxRecDepth 16384

noncomputable section

namespace Cert.KernelIdeal.Row

open Cert.KernelIdeal Cert.KernelIdeal.Gen Cert.KernelIdeal.Body Cert.KernelIdeal.Math
open Idealize.ShloMosaic Idealize.ShloMosaic.ValueIdx Cert.GcnForm

/-- The feature, adjacency and parameter matrices of the three blocks. -/
def featM (x0 : Vec Ideal S1x256x4096 .f32) : Fin 256 → Fin 4096 → EReal := fun j k => x0 (ix3 (0 : Fin 1) j k)
def adjM (x1 : Vec Ideal S256x256 .f32) : Fin 256 → Fin 256 → EReal := fun i j => x1 (ix2 i j)
def parM (x2 : Vec Ideal S256x4096 .f32) : Fin 256 → Fin 4096 → EReal := fun i k => x2 (ix2 i k)

/-- The closed form of one entry at (r, c). -/
def rowForm (x0 : Vec Ideal S1x256x4096 .f32) (x1 : Vec Ideal S256x256 .f32) (x2 : Vec Ideal S256x4096 .f32) (r : Fin 256) (c : Fin 4096) : EReal :=
  out (featM x0) (adjM x1) (parM x2) r c

/-- A load of 1024 columns from column `o`, at (r, q), is the matrix at (r, o + q). -/
theorem ld_at {Val : EltTy → Type} {e : EltTy} (X : S256x4096.Idx → Val e) (o : Nat)
    (inb : ∀ a, (![0, o] : Fin 2 → Nat) a + S256x1024.size a ≤ S256x4096.size a) (r : Fin 256) (q : Fin 1024) (hq : o + q.val < 4096) :
    View.ld X (Rect.unit (s := S256x4096) ![0, o] S256x1024.size inb) (ix2 r q) = X (ix2 r (⟨o + q.val, hq⟩ : Fin 4096)) :=
  ld_col X o inb r q hq

/-- A column block's payload at (r, q) is the closed form at (r, o + q). -/
theorem piece_at (x0 : Vec Ideal S1x256x4096 .f32) (x1 : Vec Ideal S256x256 .f32) (x2 : Vec Ideal S256x4096 .f32)
    (pay : Vec Ideal S256x1024 .bf16 → Vec Ideal S256x1024 .f32 → FVec Ideal S256x1024 .f32)
    (hpay : ∀ (fb : Vec Ideal S256x1024 .bf16) (p : Vec Ideal S256x1024 .f32) (r : Fin 256) (q : Fin 1024),
      pay fb p (ix2 r q) = max ((∑ j : Fin 256, (k0_pay3 x0 x1 (ix2 r j) : EReal) * (fb (ix2 j q) : EReal)) * (p (ix2 r q) : EReal)) zero)
    (o : Nat) (inb : ∀ a, (![0, o] : Fin 2 → Nat) a + S256x1024.size a ≤ S256x4096.size a)
    (r : Fin 256) (q : Fin 1024) (hq : o + q.val < 4096) :
    pay (View.ld (Val := Elt Ideal) (e' := .bf16) (k0_pay4 x0) (Rect.unit (s := S256x4096) ![0, o] S256x1024.size inb))
        (View.ld (Val := Elt Ideal) (e' := .f32) x2 (Rect.unit (s := S256x4096) ![0, o] S256x1024.size inb)) (ix2 r q)
      = rowForm x0 x1 x2 r (⟨o + q.val, hq⟩ : Fin 4096) := by
  rw [hpay]
  unfold rowForm out featM adjM parM
  dsimp only
  rw [ld_at (Val := Elt Ideal) (e := .f32) x2 o inb r q hq]
  refine congrArg (fun s : EReal => max (s * (x2 (ix2 r (⟨o + q.val, hq⟩ : Fin 4096)) : EReal)) zero) (Finset.sum_congr rfl fun j _ => ?_)
  rw [ld_at (Val := Elt Ideal) (e := .bf16) (k0_pay4 x0) o inb j q hq, pay3_apply, pay4_apply]

/-- The same at the block's embedded index. -/
theorem piece_emb (x0 : Vec Ideal S1x256x4096 .f32) (x1 : Vec Ideal S256x256 .f32) (x2 : Vec Ideal S256x4096 .f32)
    (pay : Vec Ideal S256x1024 .bf16 → Vec Ideal S256x1024 .f32 → FVec Ideal S256x1024 .f32)
    (hpay : ∀ (fb : Vec Ideal S256x1024 .bf16) (p : Vec Ideal S256x1024 .f32) (r : Fin 256) (q : Fin 1024),
      pay fb p (ix2 r q) = max ((∑ j : Fin 256, (k0_pay3 x0 x1 (ix2 r j) : EReal) * (fb (ix2 j q) : EReal)) * (p (ix2 r q) : EReal)) zero)
    (o : Nat) (inb : ∀ a, (![0, o] : Fin 2 → Nat) a + S256x1024.size a ≤ S256x4096.size a) (ho : o + 1024 ≤ 4096)
    (x : S256x1024.Idx) :
    pay (View.ld (Val := Elt Ideal) (e' := .bf16) (k0_pay4 x0) (Rect.unit (s := S256x4096) ![0, o] S256x1024.size inb))
        (View.ld (Val := Elt Ideal) (e' := .f32) x2 (Rect.unit (s := S256x4096) ![0, o] S256x1024.size inb)) x
      = (fun y : S256x4096.Idx => rowForm x0 x1 x2 (y 0) (y 1)) ((Rect.unit (s := S256x4096) ![0, o] S256x1024.size inb).emb x) := by
  obtain ⟨r, q, rfl⟩ : ∃ (r : Fin 256) (q : Fin 1024), x = ix2 r q := ⟨x 0, x 1, eq_ix2 x⟩
  have hq : o + q.val < 4096 := by have := q.isLt; omega
  have e0 : ((Rect.unit (s := S256x4096) ![0, o] S256x1024.size inb).emb (ix2 r q)) 0 = r :=
    Fin.ext (by show 0 + 1 * r.val = r.val; omega)
  have e1 : ((Rect.unit (s := S256x4096) ![0, o] S256x1024.size inb).emb (ix2 r q)) 1 = (⟨o + q.val, hq⟩ : Fin 4096) :=
    Fin.ext (by show o + 1 * q.val = o + q.val; omega)
  exact (piece_at x0 x1 x2 pay hpay o inb r q hq).trans (congrArg₂ (rowForm x0 x1 x2) e0.symm e1.symm)

/-- What the body leaves in the output block, as a matrix, at (r, c): the closed form of the entry. -/
theorem outRow_apply (x0 : Vec Ideal S1x256x4096 .f32) (x1 : Vec Ideal S256x256 .f32) (x2 : Vec Ideal S256x4096 .f32) (r : Fin 256) (c : Fin 4096) :
    outRow x0 x1 x2 (ix2 r c) = rowForm x0 x1 x2 r c := by
  unfold outRow
  refine (View.canon_apply_of_pieces (fun y : S256x4096.Idx => rowForm x0 x1 x2 (y 0) (y 1)) _ ?_ (ix2 r c) (cover_cols _ _ _ _ (ix2 r c))).trans rfl
  intro p hp x
  simp only [List.mem_cons, List.mem_nil_iff, or_false] at hp
  rcases hp with rfl | rfl | rfl | rfl
  · exact piece_emb x0 x1 x2 (k0_pay1 (k0_pay3 x0 x1)) (fun fb p r q => pay1_apply _ fb p r q) 3072 _ (by omega) x
  · exact piece_emb x0 x1 x2 (k0_pay8 (k0_pay3 x0 x1)) (fun fb p r q => pay8_apply _ fb p r q) 2048 _ (by omega) x
  · exact piece_emb x0 x1 x2 (k0_pay7 (k0_pay3 x0 x1)) (fun fb p r q => pay7_apply _ fb p r q) 1024 _ (by omega) x
  · exact piece_emb x0 x1 x2 (fun fb p => k0_pay6 (k0_pay5 x0 x1 fb p)) (fun fb p r q => pay6_apply x0 x1 fb p r q) 0 _ (by omega) x

end Cert.KernelIdeal.Row

end
-- ==== Proof.GcnWhole.lean ====
/-
  The common closed form as ONE function of the three argument arrays: at (b, i, h, w) it is the per-entry form of
  batch entry b at channel i and position 64 h + w, where entry b's feature matrix has x at (b, j, k / 64, k % 64) in
  row j, column k, the adjacency is the second array, and the parameter matrix has the third array at (0, i, k / 64, k % 64).
-/
import proofs.«100058_j68178310857300_2_alg».proof.Proof.GcnForm
import Idealize.ShloMosaic.Lib.ValueIdx

noncomputable section

namespace Cert.GcnForm

open Idealize.ShloMosaic Idealize.ShloMosaic.ValueIdx

/-- Position k of the 4096 as (row, column) of the 64 x 64 picture, and back. -/
def hi (k : Fin 4096) : Fin 64 := ⟨k.val / 64, by have := k.isLt; omega⟩
def lo (k : Fin 4096) : Fin 64 := ⟨k.val % 64, by omega⟩
def pos (h w : Fin 64) : Fin 4096 := ⟨h.val * 64 + w.val, by have := h.isLt; have := w.isLt; omega⟩

theorem hi_pos (h w : Fin 64) : hi (pos h w) = h := Fin.ext (by have := w.isLt; show (h.val * 64 + w.val) / 64 = h.val; omega)
theorem lo_pos (h w : Fin 64) : lo (pos h w) = w := Fin.ext (by have := w.isLt; show (h.val * 64 + w.val) % 64 = w.val; omega)
theorem pos_hi_lo (k : Fin 4096) : pos (hi k) (lo k) = k := Fin.ext (by show k.val / 64 * 64 + k.val % 64 = k.val; omega)

/-- Batch entry b's feature matrix, the adjacency matrix, the parameter matrix. -/
def featOf (x0 : (⟨4, ![32, 256, 64, 64]⟩ : Shape).Idx → EReal) (b : Fin 32) : Fin 256 → Fin 4096 → EReal :=
  fun j k => x0 (ix4 b j (hi k) (lo k))
def adjOf (x1 : (⟨2, ![256, 256]⟩ : Shape).Idx → EReal) : Fin 256 → Fin 256 → EReal := fun i j => x1 (ix2 i j)
def parOf (x2 : (⟨4, ![1, 256, 64, 64]⟩ : Shape).Idx → EReal) : Fin 256 → Fin 4096 → EReal :=
  fun i k => x2 (ix4 0 i (hi k) (lo k))

/-- The result array. -/
def G (x0 : (⟨4, ![32, 256, 64, 64]⟩ : Shape).Idx → EReal) (x1 : (⟨2, ![256, 256]⟩ : Shape).Idx → EReal)
    (x2 : (⟨4, ![1, 256, 64, 64]⟩ : Shape).Idx → EReal) : (⟨4, ![32, 256, 64, 64]⟩ : Shape).Idx → EReal :=
  fun y => out (featOf x0 (y 0)) (adjOf x1) (parOf x2) (y 1) (pos (y 2) (y 3))

end Cert.GcnForm

end
-- ==== Proof.GcnBlocks.lean ====
/-
  The result of the region as ONE function of the three arrays the region reads: the [32, 256, 4096] features, the
  adjacency and the [1, 256, 4096] parameters.  At (b, i, k) it is the per-entry closed form of entry b (its feature
  matrix the b-th [256, 4096] slab) at channel i, position k.
-/
import proofs.«100058_j68178310857300_2_alg».proof.Proof.GcnWhole

noncomputable section

namespace Cert.GcnForm

open Idealize.ShloMosaic Idealize.ShloMosaic.ValueIdx

/-- The region's result array. -/
def Gk (a0 : (⟨3, ![32, 256, 4096]⟩ : Shape).Idx → EReal) (a1 : (⟨2, ![256, 256]⟩ : Shape).Idx → EReal)
    (a2 : (⟨3, ![1, 256, 4096]⟩ : Shape).Idx → EReal) : (⟨3, ![32, 256, 4096]⟩ : Shape).Idx → EReal :=
  fun y => out (fun j k => a0 (ix3 (y 0) j k)) (fun i j => a1 (ix2 i j)) (fun i k => a2 (ix3 (0 : Fin 1) i k)) (y 1) (y 2)

end Cert.GcnForm

end
-- ==== Proof.KernelValue.lean ====
/-
  The idealized kernel's run, read: the result of the program as one function of its three argument arrays.

  Point t of the grid handles batch entry t: its feature block is slab t of the reshaped features, the adjacency and
  parameter blocks are the whole arrays, and the block it writes back is slab t of the region's result.  So slab t
  of the result is the per-entry closed form of the blocks (`outRow_apply`), the 32 slabs cover the result array, and
  the array ends holding `Gk` of the arrays the region reads.  The closing host line reshapes it to [32, 256, 64, 64].
-/
import proofs.«100058_j68178310857300_2_alg».proof.Proof.BodyIdeal
import proofs.«100058_j68178310857300_2_alg».proof.Proof.KernelRow
import proofs.«100058_j68178310857300_2_alg».proof.Proof.GcnBlocks
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body Cert.KernelIdeal.Math Cert.KernelIdeal.Row
open Idealize.ShloMosaic Idealize.ShloMosaic.TcCoe Idealize.ShloMosaic.ValueIdx Idealize.SL.Sem Cert.GcnForm
open Idealize.ShloMosaic.Pipeline (Dat)

variable (m : (ℓ : Loc nD τ sig) → Buf (Elt Ideal) ℓ) (ρ : Dev nD → PrngReg)

/-- The printed index maps, decided over the grid: the feature and result windows are at slab t, the others at the origin. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

theorem t_lt (t : Fin cfg0.N) : t.val < 32 := by
  have h := t.isLt
  have hN : cfg0.N = 32 := N_0
  omega

/-- The feature block at point t, at (0, j, k), is the reshaped features at (t, j, k). -/
theorem blk0_apply (c : Dev nD) (t : Fin cfg0.N) (j : Fin 256) (k : Fin 4096) :
    (iblk m c 0 t : Vec Ideal S1x256x4096 .f32) (ix3 (0 : Fin 1) j k) = (V m c main_v0 : S32x256x4096.Idx → EReal) (ix3 (⟨t.val, t_lt t⟩ : Fin 32) j k) := by
  obtain ⟨e0, e1, e2, -⟩ := idx_facts t
  unfold iblk
  rw [View.read_apply]
  show V m c main_v0 _ = V m c main_v0 _
  refine congrArg (V m c main_v0) (funext fun a => Fin.ext ?_)
  match a with
  | ⟨0, _⟩ => show win0_0.index t 0 * 1 + 1 * 0 = t.val; omega
  | ⟨1, _⟩ => show win0_0.index t 1 * 256 + 1 * j.val = j.val; omega
  | ⟨2, _⟩ => show win0_0.index t 2 * 4096 + 1 * k.val = k.val; omega

/-- The adjacency block is the adjacency array. -/
theorem blk1_apply (c : Dev nD) (t : Fin cfg0.N) (i j : Fin 256) :
    (iblk m c 1 t : Vec Ideal S256x256 .f32) (ix2 i j) = (V m c main_arg1 : S256x256.Idx → EReal) (ix2 i j) := by
  obtain ⟨-, -, -, e0, e1, -⟩ := idx_facts t
  unfold iblk
  rw [View.read_apply]
  show V m c main_arg1 _ = V m c main_arg1 _
  refine congrArg (V m c main_arg1) (funext fun a => Fin.ext ?_)
  match a with
  | ⟨0, _⟩ => show win0_1.index t 0 * 256 + 1 * i.val = i.val; omega
  | ⟨1, _⟩ => show win0_1.index t 1 * 256 + 1 * j.val = j.val; omega

/-- The parameter block is the reshaped parameter array. -/
theorem blk2_apply (c : Dev nD) (t : Fin cfg0.N) (i : Fin 256) (k : Fin 4096) :
    (iblk m c 2 t : Vec Ideal S1x256x4096 .f32) (ix3 (0 : Fin 1) i k) = (V m c main_v1 : S1x256x4096.Idx → EReal) (ix3 (0 : Fin 1) i k) := by
  obtain ⟨-, -, -, -, -, e0, e1, e2, -⟩ := idx_facts t
  unfold iblk
  rw [View.read_apply]
  show V m c main_v1 _ = V m c main_v1 _
  refine congrArg (V m c main_v1) (funext fun a => Fin.ext ?_)
  match a with
  | ⟨0, _⟩ => show win0_2.index t 0 * 1 + 1 * 0 = 0; omega
  | ⟨1, _⟩ => show win0_2.index t 1 * 256 + 1 * i.val = i.val; omega
  | ⟨2, _⟩ => show win0_2.index t 2 * 4096 + 1 * k.val = k.val; omega

theorem out_congr {X X' : Fin 256 → Fin 4096 → EReal} {A A' : Fin 256 → Fin 256 → EReal} {P P' : Fin 256 → Fin 4096 → EReal}
    (hX : X = X') (hA : A = A') (hP : P = P') (i : Fin 256) (k : Fin 4096) : out X A P i k = out X' A' P' i k := by
  subst hX hA hP; rfl

/-- WHAT POINT t WRITES BACK is slab t of `Gk` of the arrays the region reads. -/
theorem flushed_eq (c : Dev nD) (t : Fin cfg0.N) :
    (dats m 0 c).flushed 3 t = ((cfg0.win 3).blk t).view.read (Elt Ideal) (Gk (V m c main_v0) (V m c main_arg1) (V m c main_v1)) := by
  obtain ⟨-, -, -, -, -, -, -, -, e0, e1, e2⟩ := idx_facts t
  show (cfg0.win 3).cut (grid0.coords t) ((dats m 0 c).after 3 t) = _
  rw [after0_3]
  funext y
  obtain ⟨u, i, k, rfl⟩ : ∃ (u : Fin 1) (i : Fin 256) (k : Fin 4096), y = ix3 u i k := ⟨y 0, y 1, y 2, eq_ix3 y⟩
  have he : ((cfg0.win 3).blk t).view.emb (ix3 u i k) = ix3 (⟨t.val, t_lt t⟩ : Fin 32) i k := funext fun a => Fin.ext (by
    have hu : u.val = 0 := by omega
    match a with
    | ⟨0, _⟩ => show win0_3.index t 0 * 1 + 1 * u.val = t.val; omega
    | ⟨1, _⟩ => show win0_3.index t 1 * 256 + 1 * i.val = i.val; omega
    | ⟨2, _⟩ => show win0_3.index t 2 * 4096 + 1 * k.val = k.val; omega)
  show outBlk (iblk m c 0 t) (iblk m c 1 t) (iblk m c 2 t) (ix3 u i k)
    = Gk (V m c main_v0) (V m c main_arg1) (V m c main_v1) (((cfg0.win 3).blk t).view.emb (ix3 u i k))
  rw [he]
  show outRow (iblk m c 0 t) (iblk m c 1 t) (asRows (iblk m c 2 t)) (ix2 i k) = _
  rw [outRow_apply]
  exact out_congr (funext fun j => funext fun k' => blk0_apply m c t j k')
    (funext fun i' => funext fun j => blk1_apply m c t i' j)
    (funext fun i' => funext fun k' => (asRows_apply (iblk m c 2 t : Vec Ideal S1x256x4096 .f32) (ix3 (0 : Fin 1) i' k')).trans (blk2_apply m c t i' k')) i k

/-- An index of the result array is in point t's block iff each coordinate is in the block's range on its axis. -/
theorem mem_blk3 (t : Fin cfg0.N) (i : S32x256x4096.Idx) :
    i ∈ ((cfg0.win 3).blk t).view.set ↔ ∀ a : Fin 3, win0_3.index t a * S1x256x4096.size a ≤ (i a).val ∧ (i a).val < win0_3.index t a * S1x256x4096.size a + S1x256x4096.size a := by
  show i ∈ ((View.whole main_v2).slice (win0_3.rect t)).set ↔ _
  rw [View.set_slice_whole, Rect.mem_set_unit]
  exact Iff.rfl

/-- Every index of the result array is in the block of the point of its batch entry. -/
theorem cover (i : S32x256x4096.Idx) : ∃ t : Fin cfg0.N, (cfg0.win 3).flush t = true ∧ i ∈ ((cfg0.win 3).blk t).view.set := by
  have hi0 : (i 0).val < 32 := (i 0).isLt
  have hi1 : (i 1).val < 256 := (i 1).isLt
  have hi2 : (i 2).val < 4096 := (i 2).isLt
  have hN : cfg0.N = 32 := N_0
  let t : Fin cfg0.N := ⟨(i 0).val, by rw [hN]; exact hi0⟩
  obtain ⟨-, -, -, -, -, -, -, -, e0, e1, e2⟩ := idx_facts t
  refine ⟨t, flush0_3 t, ?_⟩
  rw [mem_blk3]
  intro a
  match a with
  | ⟨0, _⟩ => show win0_3.index t 0 * 1 ≤ (i 0).val ∧ (i 0).val < win0_3.index t 0 * 1 + 1; rw [e0]; show (i 0).val * 1 ≤ (i 0).val ∧ (i 0).val < (i 0).val * 1 + 1; omega
  | ⟨1, _⟩ => show win0_3.index t 1 * 256 ≤ (i 1).val ∧ (i 1).val < win0_3.index t 1 * 256 + 256; omega
  | ⟨2, _⟩ => show win0_3.index t 2 * 4096 ≤ (i 2).val ∧ (i 2).val < win0_3.index t 2 * 4096 + 4096; omega

/-- THE RESULT ARRAY of the region after the run. -/
theorem final3 (c : Dev nD) : (dats m 0 c).arrAt 3 cfg0.N = Gk (V m c main_v0) (V m c main_arg1) (V m c main_v1) :=
  (dats m 0 c).arrAt_eq_of_cover 3 _ (fun t _ => flushed_eq m c t) cover

end Cert.KernelIdeal.KValue

end
-- ==== Proof.KernelHost.lean ====
/-
  The host lines around the region. Before it, two reshapes: the region finds the [32, 256, 64, 64] feature array
  cast to [32, 256, 4096] and the [1, 256, 64, 64] parameter array cast to [1, 256, 4096] (a cast keeps each element's
  row-major position). After it, one reshape: the result array holds the region's [32, 256, 4096] output, as the last
  grid point leaves it, cast back to [32, 256, 64, 64].
-/
import proofs.«100058_j68178310857300_2_alg».proof.Proof.BodyIdeal
import Idealize.ShloMosaic.Lib.Pipeline.Value
import Idealize.ShloMosaic.Lib.StableHlo.Run

set_option maxRecDepth 16384

noncomputable section

namespace Cert.KernelIdeal.KHost

open Cert.KernelIdeal Cert.KernelIdeal.Gen Cert.KernelIdeal.Body Idealize.ShloMosaic Idealize.ShloMosaic.TcCoe Idealize.SL.Sem
open Idealize.ShloMosaic.Pipeline (Dat)

variable (m : (ℓ : Loc nD τ sig) → Buf (Elt Ideal) ℓ)

/-- What the region finds in the first reshaped array: the feature array cast to [32, 256, 4096]. -/
theorem V_v0 (c : Dev nD) :
    (V m c main_v0 : S32x256x4096.Idx → EReal)
      = shapeCast S32x256x4096 (m ((c : Thread nD τ).loc main_arg0)) shapeCasts_S32x256x64x64_S32x256x4096 := by
  show StableHlo.after hostOps0 (fun b => m (c, b)) (Proc.devRef .tc main_v0) = _
  after_results
  rfl

/-- What the region finds in the second reshaped array: the parameter array cast to [1, 256, 4096]. -/
theorem V_v1 (c : Dev nD) :
    (V m c main_v1 : S1x256x4096.Idx → EReal)
      = shapeCast S1x256x4096 (m ((c : Thread nD τ).loc main_arg2)) shapeCasts_S1x256x64x64_S1x256x4096 := by
  show StableHlo.after hostOps0 (fun b => m (c, b)) (Proc.devRef .tc main_v1) = _
  after_results
  rfl

/-- What the closing reshape leaves: the region's output array, as it stands after the last grid point, cast back to
    [32, 256, 64, 64]: the closing line reads the array the region wrote. -/
theorem tail_v3 (c : Dev nD) :
    (Pipeline.afterTail₀ cfgs (dats m) 0 (V0 m) [hostOps1] c main_v3 : S32x256x64x64.Idx → EReal)
      = shapeCast S32x256x64x64 ((dats m 0 c).arrAt 3 cfg0.N) shapeCasts_S32x256x4096_S32x256x64x64 := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = (dats m 0 c).arrAt 3 cfg0.N :=
    Pipeline.withArrays_arr spec0 launch0.win.arr_inj c _ _ 3
  exact congrArg (fun a => shapeCast S32x256x64x64 a shapeCasts_S32x256x4096_S32x256x64x64) e

end Cert.KernelIdeal.KHost

end
-- ==== Proof.GcnReshape.lean ====
/-
  The region works on the features reshaped to [32, 256, 4096] and the parameters reshaped to [1, 256, 4096], and its
  result is reshaped back to [32, 256, 64, 64]. A reshape keeps the row-major position, so position k of a channel is
  the picture's row k / 64, column k % 64, and (h, w) is position 64 h + w: the region's closed form on the reshaped
  arrays, reshaped back, is the whole closed form on the arrays themselves.
-/
import proofs.«100058_j68178310857300_2_alg».proof.Proof.GcnBlocks
import Idealize.ShloMosaic.Lib.Pipeline.Value
import Idealize.ShloMosaic.Lib.ValueIdx

noncomputable section

namespace Cert.GcnForm

open Idealize.ShloMosaic Idealize.ShloMosaic.ValueIdx

/-- The features reshaped to [32, 256, 4096], read at (b, j, k): the picture's row k / 64, column k % 64, since
    ((256 b + j) 64 + k / 64) 64 + k % 64 = (256 b + j) 4096 + k. -/
theorem cast0_at (x0 : (⟨4, ![32, 256, 64, 64]⟩ : Shape).Idx → EReal)
    (h0 : (⟨4, ![32, 256, 64, 64]⟩ : Shape).ShapeCasts ⟨3, ![32, 256, 4096]⟩) (b : Fin 32) (j : Fin 256) (k : Fin 4096) :
    shapeCast ⟨3, ![32, 256, 4096]⟩ x0 h0 (ix3 b j k) = x0 (ix4 b j (hi k) (lo k)) := by
  refine shapeCast_apply x0 h0 (ix3 b j k) (ix4 b j (hi k) (lo k)) ?_
  rw [Shape.rowMajor_val_four, Shape.rowMajor_val_three]
  have hb := b.isLt; have hj := j.isLt; have hk := k.isLt
  show ((b.val * 256 + j.val) * 64 + k.val / 64) * 64 + k.val % 64 = (b.val * 256 + j.val) * 4096 + k.val
  omega

/-- The parameters reshaped to [1, 256, 4096], read at (z, i, k), likewise. -/
theorem cast2_at (x2 : (⟨4, ![1, 256, 64, 64]⟩ : Shape).Idx → EReal)
    (h2 : (⟨4, ![1, 256, 64, 64]⟩ : Shape).ShapeCasts ⟨3, ![1, 256, 4096]⟩) (z : Fin 1) (i : Fin 256) (k : Fin 4096) :
    shapeCast ⟨3, ![1, 256, 4096]⟩ x2 h2 (ix3 z i k) = x2 (ix4 z i (hi k) (lo k)) := by
  refine shapeCast_apply x2 h2 (ix3 z i k) (ix4 z i (hi k) (lo k)) ?_
  rw [Shape.rowMajor_val_four, Shape.rowMajor_val_three]
  have hz := z.isLt; have hi' := i.isLt; have hk := k.isLt
  show ((z.val * 256 + i.val) * 64 + k.val / 64) * 64 + k.val % 64 = (z.val * 256 + i.val) * 4096 + k.val
  omega

/-- A [32, 256, 4096] array reshaped to the pictures, read at (b, i, h, w): position 64 h + w of channel i. -/
theorem cast3_at (g : (⟨3, ![32, 256, 4096]⟩ : Shape).Idx → EReal)
    (h3 : (⟨3, ![32, 256, 4096]⟩ : Shape).ShapeCasts ⟨4, ![32, 256, 64, 64]⟩) (b : Fin 32) (i : Fin 256) (h w : Fin 64) :
    shapeCast ⟨4, ![32, 256, 64, 64]⟩ g h3 (ix4 b i h w) = g (ix3 b i (pos h w)) := by
  refine shapeCast_apply g h3 (ix4 b i h w) (ix3 b i (pos h w)) ?_
  rw [Shape.rowMajor_val_three, Shape.rowMajor_val_four]
  have hb := b.isLt; have hi' := i.isLt; have hh := h.isLt; have hw := w.isLt
  show (b.val * 256 + i.val) * 4096 + (h.val * 64 + w.val) = ((b.val * 256 + i.val) * 64 + h.val) * 64 + w.val
  omega

/-- The region's result on the reshaped arrays, reshaped back, is the whole closed form on the arrays themselves:
    at (b, i, h, w) both are the per-entry form of entry b at channel i, position 64 h + w, over the same feature,
    adjacency and parameter matrices. -/
theorem Gk_reshape (x0 : (⟨4, ![32, 256, 64, 64]⟩ : Shape).Idx → EReal) (x1 : (⟨2, ![256, 256]⟩ : Shape).Idx → EReal)
    (x2 : (⟨4, ![1, 256, 64, 64]⟩ : Shape).Idx → EReal)
    (h0 : (⟨4, ![32, 256, 64, 64]⟩ : Shape).ShapeCasts ⟨3, ![32, 256, 4096]⟩)
    (h2 : (⟨4, ![1, 256, 64, 64]⟩ : Shape).ShapeCasts ⟨3, ![1, 256, 4096]⟩)
    (h3 : (⟨3, ![32, 256, 4096]⟩ : Shape).ShapeCasts ⟨4, ![32, 256, 64, 64]⟩) :
    shapeCast ⟨4, ![32, 256, 64, 64]⟩
        (Gk (shapeCast ⟨3, ![32, 256, 4096]⟩ x0 h0) x1 (shapeCast ⟨3, ![1, 256, 4096]⟩ x2 h2)) h3
      = G x0 x1 x2 := by
  funext y
  obtain ⟨b, i, h, w, rfl⟩ : ∃ (b : Fin 32) (i : Fin 256) (h w : Fin 64), y = ix4 b i h w :=
    ⟨y 0, y 1, y 2, y 3, eq_ix4 y⟩
  rw [cast3_at]
  have e0 : (fun (j : Fin 256) (k : Fin 4096) => shapeCast ⟨3, ![32, 256, 4096]⟩ x0 h0 (ix3 b j k)) = featOf x0 b :=
    funext fun j => funext fun k => cast0_at x0 h0 b j k
  have e2 : (fun (i : Fin 256) (k : Fin 4096) => shapeCast ⟨3, ![1, 256, 4096]⟩ x2 h2 (ix3 (0 : Fin 1) i k)) = parOf x2 :=
    funext fun i => funext fun k => cast2_at x2 h2 0 i k
  show out (fun (j : Fin 256) (k : Fin 4096) => shapeCast ⟨3, ![32, 256, 4096]⟩ x0 h0 (ix3 b j k)) (adjOf x1)
      (fun (i : Fin 256) (k : Fin 4096) => shapeCast ⟨3, ![1, 256, 4096]⟩ x2 h2 (ix3 (0 : Fin 1) i k)) i (pos h w)
    = out (featOf x0 b) (adjOf x1) (parOf x2) i (pos h w)
  rw [e0, e2]

end Cert.GcnForm

end
-- ==== Proof.KernelRun.lean ====
/-
  The idealized kernel's run with its result named: the program's result array ends at the common closed form `G` of
  its three argument arrays, and the arguments end unchanged.

  The result buffer is what the closing reshape leaves (the region's result array, cast to [32, 256, 64, 64]); the
  region's result array is `Gk` of the arrays the region reads (the reshaped features, the adjacency, the reshaped
  parameters); and the cast of `Gk` of the reshaped arguments is `G` of the arguments.
-/
import proofs.«100058_j68178310857300_2_alg».proof.Proof.KernelValue
import proofs.«100058_j68178310857300_2_alg».proof.Proof.KernelHost
import proofs.«100058_j68178310857300_2_alg».proof.Proof.GcnReshape

set_option maxRecDepth 16384

noncomputable section

namespace Cert.KernelIdeal.KRun

open Cert.KernelIdeal Cert.KernelIdeal.Gen Cert.KernelIdeal.Body Cert.KernelIdeal.KValue Cert.KernelIdeal.KHost
open Idealize.ShloMosaic Idealize.ShloMosaic.TcCoe Idealize.SL.Sem Cert.GcnForm
open Idealize.ShloMosaic.Pipeline (Dat)

variable (m : (ℓ : Loc nD τ sig) → Buf (Elt Ideal) ℓ) (ρ : Dev nD → PrngReg)

/-- The result buffer after the closing reshape is `G` of the argument arrays. -/
theorem result_eq (c : Dev nD) :
    (Pipeline.afterTail₀ cfgs (dats m) 0 (V0 m) [hostOps1] c main_v3 : S32x256x64x64.Idx → EReal)
      = G (m ((c : Thread nD τ).loc main_arg0)) (m ((c : Thread nD τ).loc main_arg1)) (m ((c : Thread nD τ).loc main_arg2)) := by
  rw [tail_v3, final3, V_v0, V_v1, V_main_arg1]
  exact Gk_reshape _ _ _ _ _ _

/-- Every weakly fair execution of the idealized kernel's program terminates with its result at `G` of the arguments and
    the arguments unchanged. -/
theorem run : θ_run defs (onTc (τ := τ) (main (F := Ideal))) ⟨m, fun _ => 0, ρ⟩ fun r => ∀ c : Dev nD,
      r.2.mem ((c.tc : Thread nD τ).loc main_v3)
        = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KRun

end
-- ==== Proof.RefRead.lean ====
/-
  The reference's run and its operations read at an index (both generated) are brought in here; the
  identification of the reference's result with the common closed form is added below.
-/
import proofs.«100058_j68178310857300_2_alg».proof.Defs
import proofs.«100058_j68178310857300_2_alg».proof.Proof.Gen.ReferenceIdeal.Run
import proofs.«100058_j68178310857300_2_alg».proof.Proof.Gen.ReferenceIdeal.Read
import proofs.«100058_j68178310857300_2_alg».proof.Proof.GcnWhole
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.GcnForm

/-- The sum over the two picture axes, at channel (b, i): the zero word plus the sum over the 4096 positions,
    each position k read at row k / 64, column k % 64. The positions of the picture that reduce to (b, i) are
    exactly the indices (b, i, h, w), and k ↦ (b, i, k / 64, k % 64) lists them once each. -/
theorem v1_at (x0 : (⟨S32x256x64x64, .f32⟩ : BufTy).Contents (Elt Ideal)) (b : Fin 32) (i : Fin 256) :
    val_main_v1 (F := Ideal) x0 (ix2 b i)
      = Ideal.ofBits .f32 0x00000000#32 + ∑ k : Fin 4096, x0 (ix4 b i (hi k) (lo k)) := by
  show Ideal.hostReduceAdd reducesTo_S32x256x64x64_S32x256_d2_3 x0 (Ideal.ofBits .f32 0x00000000#32) (ix2 b i) = _
  unfold Ideal.hostReduceAdd
  congr 1
  symm
  refine Finset.sum_bij (fun k _ => ix4 b i (hi k) (lo k)) ?_ ?_ ?_ ?_
  · intro k _
    rw [Finset.mem_filter]
    refine ⟨Finset.mem_univ _, ?_⟩
    funext a
    refine Fin.ext ?_
    match a with
    | ⟨0, _⟩ => exact reducesTo_S32x256x64x64_S32x256_d2_3.drop_apply_val_of_eq _ 0 0
    | ⟨1, _⟩ => exact reducesTo_S32x256x64x64_S32x256_d2_3.drop_apply_val_of_eq _ 1 1
  · intro k1 _ k2 _ h
    have h2 : hi k1 = hi k2 := congrFun h 2
    have h3 : lo k1 = lo k2 := congrFun h 3
    calc k1 = pos (hi k1) (lo k1) := (pos_hi_lo k1).symm
      _ = pos (hi k2) (lo k2) := by rw [h2, h3]
      _ = k2 := pos_hi_lo k2
  · intro y hy
    rw [Finset.mem_filter] at hy
    obtain ⟨a, c, h, w, rfl⟩ : ∃ (a : Fin 32) (c : Fin 256) (h w : Fin 64), y = ix4 a c h w :=
      ⟨y 0, y 1, y 2, y 3, eq_ix4 y⟩
    refine ⟨pos h w, Finset.mem_univ _, ?_⟩
    have e0 : a = b :=
      Fin.ext ((reducesTo_S32x256x64x64_S32x256_d2_3.drop_apply_val_of_eq (ix4 a c h w) 0 0).symm.trans
        (congrArg Fin.val (congrFun hy.2 0)))
    have e1 : c = i :=
      Fin.ext ((reducesTo_S32x256x64x64_S32x256_d2_3.drop_apply_val_of_eq (ix4 a c h w) 1 1).symm.trans
        (congrArg Fin.val (congrFun hy.2 1)))
    subst e0; subst e1
    show ix4 a c (hi (pos h w)) (lo (pos h w)) = ix4 a c h w
    rw [hi_pos, lo_pos]
  · intro k _; rfl

/-- The channel mean: the sum divided by the word of 4096 is the row mean of the entry's feature matrix. -/
theorem v3_at (x0 : (⟨S32x256x64x64, .f32⟩ : BufTy).Contents (Elt Ideal)) (b : Fin 32) (i : Fin 256) :
    val_main_v3 (F := Ideal) x0 (ix2 b i) = rowMean (featOf x0 b i) := by
  rw [val_main_v3_apply, val_main_v2_apply, val_main_cst_0_apply, v1_at, Ideal.hostDivf_def, Ideal.ofBits_def,
    Ideal.ofBits_zero_f32, zero_add, div_4096]
  rfl

/-- Broadcast along the row axis: the second channel's mean. -/
theorem v6_at (x0 : (⟨S32x256x64x64, .f32⟩ : BufTy).Contents (Elt Ideal)) (b : Fin 32) (i j : Fin 256) :
    val_main_v6 (F := Ideal) x0 (ix3 b i j) = rowMean (featOf x0 b j) := by
  rw [val_main_v6_apply, val_main_v4_apply]
  have e : idx_main_v4 (idx_main_v6 (ix3 b i j)) = ix2 b j :=
    funext fun a => Fin.ext (by match a with | ⟨0, _⟩ => rfl | ⟨1, _⟩ => rfl)
  rw [e, v3_at]

/-- Broadcast along the column axis: the first channel's mean. -/
theorem v7_at (x0 : (⟨S32x256x64x64, .f32⟩ : BufTy).Contents (Elt Ideal)) (b : Fin 32) (i j : Fin 256) :
    val_main_v7 (F := Ideal) x0 (ix3 b i j) = rowMean (featOf x0 b i) := by
  rw [val_main_v7_apply, val_main_v5_apply]
  have e : idx_main_v5 (idx_main_v7 (ix3 b i j)) = ix2 b i :=
    funext fun a => Fin.ext (by match a with | ⟨0, _⟩ => rfl | ⟨1, _⟩ => rfl)
  rw [e, v3_at]

/-- The pair weight before symmetrization: the logistic function of the difference of the two means, spelt with
    the word of one, then the two absolute values (each a maximum with the negation) around the word of one half,
    then the word of two. -/
theorem v22_at (x0 : (⟨S32x256x64x64, .f32⟩ : BufTy).Contents (Elt Ideal)) (b : Fin 32) (i j : Fin 256) :
    val_main_v22 (F := Ideal) x0 (ix3 b i j) = pairW (rowMean (featOf x0 b i)) (rowMean (featOf x0 b j)) := by
  rw [val_main_v22_apply, val_main_v20_apply, val_main_v19_apply, val_main_v17_apply, val_main_v16_apply,
    val_main_v14_apply, val_main_v13_apply, val_main_cst_2_apply, val_main_v12_apply, val_main_v11_apply,
    val_main_cst_1_apply, val_main_v10_apply, val_main_v9_apply, val_main_v8_apply, v6_at, v7_at,
    val_main_v15_apply, val_main_cst_3_apply, val_main_v18_apply, val_main_cst_4_apply, val_main_v21_apply,
    val_main_cst_5_apply]
  simp only [Ideal.hostDivf_def, Ideal.hostUnary_exp_def, Ideal.hostNegf_def, Ideal.negf_def, Ideal.hostAbsf_def,
    Ideal.absf_def, Ideal.subf_def, Ideal.addf_def, Ideal.mulf_def, Ideal.ofBits_def, logistic_spelt]
  rfl

/-- The symmetrized weight: the pair weight plus its transpose, times the word of one half. -/
theorem v26_at (x0 : (⟨S32x256x64x64, .f32⟩ : BufTy).Contents (Elt Ideal)) (b : Fin 32) (i j : Fin 256) :
    val_main_v26 (F := Ideal) x0 (ix3 b i j) = symW (rowMean (featOf x0 b i)) (rowMean (featOf x0 b j)) := by
  rw [val_main_v26_apply, val_main_v24_apply, val_main_v23_apply, val_main_v25_apply, val_main_cst_6_apply]
  have e : idx_main_v23 (ix3 b i j) = ix3 b j i :=
    funext fun a => Fin.ext (by match a with | ⟨0, _⟩ => rfl | ⟨1, _⟩ => rfl | ⟨2, _⟩ => rfl)
  rw [e, v22_at, v22_at]
  simp only [Ideal.addf_def, Ideal.mulf_def, Ideal.ofBits_def]
  rfl

/-- The adjacency factor, broadcast over the batch. -/
theorem v28_at (x1 : (⟨S256x256, .f32⟩ : BufTy).Contents (Elt Ideal)) (b : Fin 32) (i j : Fin 256) :
    val_main_v28 (F := Ideal) x1 (ix3 b i j) = adjOf x1 i j := by
  rw [val_main_v28_apply, val_main_v27_apply]
  have e : idx_main_v27 (idx_main_v28 (ix3 b i j)) = ix2 i j :=
    funext fun a => Fin.ext (by match a with | ⟨0, _⟩ => rfl | ⟨1, _⟩ => rfl)
  rw [e]
  rfl

/-- The weight matrix of batch entry b at (i, j). -/
theorem v29_at (x0 : (⟨S32x256x64x64, .f32⟩ : BufTy).Contents (Elt Ideal)) (x1 : (⟨S256x256, .f32⟩ : BufTy).Contents (Elt Ideal))
    (b : Fin 32) (i j : Fin 256) :
    val_main_v29 (F := Ideal) x0 x1 (ix3 b i j)
      = adjOf x1 i j * symW (rowMean (featOf x0 b i)) (rowMean (featOf x0 b j)) := by
  rw [val_main_v29_apply, v28_at, v26_at, Ideal.mulf_def]

/-- The feature array reshaped to [32, 256, 4096]: position k of channel j is the picture's row k / 64, column k % 64. -/
theorem v0_at (x0 : (⟨S32x256x64x64, .f32⟩ : BufTy).Contents (Elt Ideal)) (b : Fin 32) (j : Fin 256) (k : Fin 4096) :
    val_main_v0 (F := Ideal) x0 (ix3 b j k) = featOf x0 b j k := by
  rw [val_main_v0_apply]
  have e : idx_main_v0 (ix3 b j k) = ix4 b j (hi k) (lo k) :=
    funext fun a => Fin.ext (by
      have hb := b.isLt; have hj := j.isLt; have hk := k.isLt
      match a with
      | ⟨0, _⟩ => show ((b.val * 256 + j.val) * 4096 + k.val) / 1048576 = b.val; omega
      | ⟨1, _⟩ => show ((b.val * 256 + j.val) * 4096 + k.val) / 4096 % 256 = j.val; omega
      | ⟨2, _⟩ => show ((b.val * 256 + j.val) * 4096 + k.val) / 64 % 64 = k.val / 64; omega
      | ⟨3, _⟩ => show ((b.val * 256 + j.val) * 4096 + k.val) % 64 = k.val % 64; omega)
  rw [e]
  rfl

/-- The product of the weight matrix with the feature matrix, at (b, i, k): the sum over the channels j. -/
theorem v30_at (x0 : (⟨S32x256x64x64, .f32⟩ : BufTy).Contents (Elt Ideal)) (x1 : (⟨S256x256, .f32⟩ : BufTy).Contents (Elt Ideal))
    (b : Fin 32) (i : Fin 256) (k : Fin 4096) :
    val_main_v30 (F := Ideal) x0 x1 (ix3 b i k)
      = ∑ j : Fin 256, (adjOf x1 i j * symW (rowMean (featOf x0 b i)) (rowMean (featOf x0 b j))) * featOf x0 b j k := by
  rw [val_main_v30_apply]
  refine Finset.sum_congr rfl fun j _ => ?_
  have el : lidx_main_v30 (ix3 b i k) j = ix3 b i j :=
    funext fun a => Fin.ext (by match a with | ⟨0, _⟩ => rfl | ⟨1, _⟩ => rfl | ⟨2, _⟩ => rfl)
  have er : ridx_main_v30 (ix3 b i k) j = ix3 b j k :=
    funext fun a => Fin.ext (by match a with | ⟨0, _⟩ => rfl | ⟨1, _⟩ => rfl | ⟨2, _⟩ => rfl)
  rw [el, er, v29_at, v0_at]

/-- Reshaped back to the pictures: (h, w) is position 64 h + w. -/
theorem v31_at (x0 : (⟨S32x256x64x64, .f32⟩ : BufTy).Contents (Elt Ideal)) (x1 : (⟨S256x256, .f32⟩ : BufTy).Contents (Elt Ideal))
    (b : Fin 32) (i : Fin 256) (h w : Fin 64) :
    val_main_v31 (F := Ideal) x0 x1 (ix4 b i h w)
      = ∑ j : Fin 256, (adjOf x1 i j * symW (rowMean (featOf x0 b i)) (rowMean (featOf x0 b j))) * featOf x0 b j (pos h w) := by
  rw [val_main_v31_apply]
  have e : idx_main_v31 (ix4 b i h w) = ix3 b i (pos h w) :=
    funext fun a => Fin.ext (by
      have hb := b.isLt; have hi' := i.isLt; have hh := h.isLt; have hw := w.isLt
      match a with
      | ⟨0, _⟩ => show (((b.val * 256 + i.val) * 64 + h.val) * 64 + w.val) / 1048576 = b.val; omega
      | ⟨1, _⟩ => show (((b.val * 256 + i.val) * 64 + h.val) * 64 + w.val) / 4096 % 256 = i.val; omega
      | ⟨2, _⟩ => show (((b.val * 256 + i.val) * 64 + h.val) * 64 + w.val) % 4096 = h.val * 64 + w.val; omega)
  rw [e, v30_at]

/-- The parameter array, broadcast over the batch. -/
theorem v32_at (x2 : (⟨S1x256x64x64, .f32⟩ : BufTy).Contents (Elt Ideal)) (b : Fin 32) (i : Fin 256) (h w : Fin 64) :
    val_main_v32 (F := Ideal) x2 (ix4 b i h w) = parOf x2 i (pos h w) := by
  rw [val_main_v32_apply]
  have e : idx_main_v32 (ix4 b i h w) = ix4 (0 : Fin 1) i h w :=
    funext fun a => Fin.ext (by match a with | ⟨0, _⟩ => rfl | ⟨1, _⟩ => rfl | ⟨2, _⟩ => rfl | ⟨3, _⟩ => rfl)
  rw [e]
  show x2 (ix4 (0 : Fin 1) i h w) = x2 (ix4 (0 : Fin 1) i (hi (pos h w)) (lo (pos h w)))
  rw [hi_pos, lo_pos]

/-- The reference's result is the common closed form: the product times the parameter, then the maximum with the
    zero word. -/
theorem ref_eq_G (x0 : (⟨S32x256x64x64, .f32⟩ : BufTy).Contents (Elt Ideal)) (x1 : (⟨S256x256, .f32⟩ : BufTy).Contents (Elt Ideal))
    (x2 : (⟨S1x256x64x64, .f32⟩ : BufTy).Contents (Elt Ideal)) :
    val_main_v34 (F := Ideal) x0 x1 x2 = Cert.GcnForm.G x0 x1 x2 := by
  funext y
  obtain ⟨b, i, h, w, rfl⟩ : ∃ (b : Fin 32) (i : Fin 256) (h w : Fin 64), y = ix4 b i h w :=
    ⟨y 0, y 1, y 2, y 3, eq_ix4 y⟩
  rw [val_main_v34_apply, val_main_v33_apply, v31_at, v32_at, val_main_call0_v0_apply, val_main_call0_cst_apply,
    Ideal.maximumf_def, Ideal.mulf_def, Ideal.ofBits_def]
  show _ = out (featOf x0 b) (adjOf x1) (parOf x2) i (pos h w)
  rfl

end Cert.ReferenceIdeal.RefValue

end
-- ==== Proof.lean ====
/-
  The certificate: a fused graph-convolution kernel against its array-library reference, over the extended reals.

  For each of 32 batch entries the program takes the [256, 4096] feature matrix X, forms the channel means
  c i = (sum over k of X i k) / 4096, the pair weights s(i, j) = | |sigma(c j - c i) - 1/2| - 1/2 | * 2 symmetrized as
  (s(i, j) + s(j, i)) / 2 and scaled by the adjacency A i j, and returns max ((sum over j of weight i j * X j k) * P i k, 0)
  with P the parameter matrix.  The kernel does this in one launch per entry, multiplying by the word of 1/4096,
  storing the features once to a scratch and forming the product in four blocks of 1024 columns; the reference divides
  by the word of 4096, spells sigma by negate, exponential, add and divide, and forms the product in one batched
  contraction.  At the ideal instance both results are ONE function `G` of the three argument arrays
  (Proof/GcnForm.lean, GcnWhole.lean): the kernel's by reading its four stores at an index (Proof/KernelMath.lean,
  KernelRow.lean) and its 32 blocks as the array (Proof/KernelValue.lean, KernelHost.lean, KernelRun.lean), the
  reference's by reading its operations at an index (Proof/RefRead.lean over the generated run and read modules).
  No step needs the inputs finite: the one law that joins the two sides is that dividing by 4096 is multiplying by
  its reciprocal, which holds on every extended real.

  The two kernel frames (the program as printed, and its idealization) are the body's run at a generic grid point
  (Proof/BodyBits.lean, Proof/BodyIdeal.lean: the same text at the two instances) under the generated launch;
  the reference's frame is its generated run with the result dropped; the ideal pass rewrote nothing, so the
  idealization conjunct is trivial.
-/
import proofs.«100058_j68178310857300_2_alg».proof.Defs
import proofs.«100058_j68178310857300_2_alg».proof.Proof.Gen.Kernel
import proofs.«100058_j68178310857300_2_alg».proof.Proof.Gen.KernelIdeal
import proofs.«100058_j68178310857300_2_alg».proof.Proof.Gen.ReferenceIdeal
import proofs.«100058_j68178310857300_2_alg».proof.Proof.Gen.Pre_finite_inputs
import proofs.«100058_j68178310857300_2_alg».proof.Proof.BodyBits
import proofs.«100058_j68178310857300_2_alg».proof.Proof.BodyIdeal
import proofs.«100058_j68178310857300_2_alg».proof.Proof.KernelRun
import proofs.«100058_j68178310857300_2_alg».proof.Proof.RefRead
import Idealize.ShloMosaic.Adequacy
import Idealize.ShloMosaic.Init

noncomputable section

namespace Cert.Proof

open Idealize.ShloMosaic Idealize.SL.Sem

/-- The program as printed runs to the end, faults nowhere, and leaves its arguments unchanged. -/
theorem frame_p : Cert.frame_Kernel := fun m ρ _ => Cert.Kernel.Body.frame m ρ

/-- So does its idealization. -/
theorem frame_pi : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with their results at `G` of the arguments. -/
theorem algebraic : Cert.algebraic_KernelIdeal_ReferenceIdeal := by
  intro m ρ m' ρ' _ hagree
  refine ⟨fun c => Cert.GcnForm.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v34_eq _ _ _).trans (Cert.ReferenceIdeal.RefValue.ref_eq_G _ _ _)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
